-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x2 : Shape := ⟨3, ![8, 8192, 2]⟩
abbrev S8x4096x2 : Shape := ⟨3, ![8, 4096, 2]⟩
abbrev S_ : Shape := ⟨0, ![]⟩

class Facts : Prop where
  bcast_S_S8x8192x2 : S_.BroadcastsInDim S8x8192x2 (![] : Fin 0 → Fin S8x8192x2.rank)
  reducesTo_S8x8192x2_S_d0_1_2 : S8x8192x2.ReducesTo [0, 1, 2] S_
  h_S_ : 0 < S_.numel
  bcast_S_S8x4096x2 : S_.BroadcastsInDim S8x4096x2 (![] : Fin 0 → Fin S8x4096x2.rank)
  reducesTo_S8x4096x2_S_d0_1_2 : S8x4096x2.ReducesTo [0, 1, 2] S_

variable [Facts]

def fn {F : FTy → Type} [FloatOps F] (main_arg0 : FVec F S8x8192x2 .f32) (main_arg1 : FVec F S8x4096x2 .f32) : IVec S_ 1 :=
  let main_v0 : FVec F S8x8192x2 .f32 := Host.absf main_arg0
  let main_cst : FVec F S_ .f32 := constant S_ .f32 0x7F800000#32
  let main_v1 : FVec F S8x8192x2 .f32 := broadcastInDim S8x8192x2 ![] bcast_S_S8x8192x2 main_cst
  let main_v2 : IVec S8x8192x2 1 := cmpf .olt main_v0 main_v1
  let main_c : IVec S_ 1 := constantI S_ 1 1#1
  let main_v3 : IVec S_ 1 := (fun x v => Host.reduce IntOp.andi x v reducesTo_S8x8192x2_S_d0_1_2 h_S_) main_v2 main_c
  let main_v4 : FVec F S8x4096x2 .f32 := Host.absf main_arg1
  let main_cst_0 : FVec F S_ .f32 := constant S_ .f32 0x7F800000#32
  let main_v5 : FVec F S8x4096x2 .f32 := broadcastInDim S8x4096x2 ![] bcast_S_S8x4096x2 main_cst_0
  let main_v6 : IVec S8x4096x2 1 := cmpf .olt main_v4 main_v5
  let main_c_1 : IVec S_ 1 := constantI S_ 1 1#1
  let main_v7 : IVec S_ 1 := (fun x v => Host.reduce IntOp.andi x v reducesTo_S8x4096x2_S_d0_1_2 h_S_) main_v6 main_c_1
  let main_v8 : IVec S_ 1 := andi main_v3 main_v7
  main_v8
-- ==== Kernel.lean ====
abbrev S8x8192x2 : Shape := ⟨3, ![8, 8192, 2]⟩
abbrev S8x4096x2 : Shape := ⟨3, ![8, 4096, 2]⟩
abbrev S_ : Shape := ⟨0, ![]⟩
abbrev S8x2 : Shape := ⟨2, ![8, 2]⟩
abbrev S8x1x2 : Shape := ⟨3, ![8, 1, 2]⟩
abbrev S8 : Shape := ⟨1, ![8]⟩
abbrev S8x1x1 : Shape := ⟨3, ![8, 1, 1]⟩
abbrev S8x2x8192 : Shape := ⟨3, ![8, 2, 8192]⟩
abbrev S8x4096x1 : Shape := ⟨3, ![8, 4096, 1]⟩
abbrev S8x256x2 : Shape := ⟨3, ![8, 256, 2]⟩
abbrev S8x2x1024 : Shape := ⟨3, ![8, 2, 1024]⟩
abbrev S8x256x1 : Shape := ⟨3, ![8, 256, 1]⟩
abbrev S8x1x1024 : Shape := ⟨3, ![8, 1, 1024]⟩
abbrev S8x256x1024 : Shape := ⟨3, ![8, 256, 1024]⟩
abbrev S8x256 : Shape := ⟨2, ![8, 256]⟩
abbrev S8x4096 : Shape := ⟨2, ![8, 4096]⟩
abbrev S8x1 : Shape := ⟨2, ![8, 1]⟩

abbrev nBuf : Space → Nat
  | .hbm => 48
  | .vmem => 8
  | .smem => 0
  | _ => 0

abbrev bufTy : (tb : Table) → Fin (tcTables nBuf tb) → BufTy
  | .hbm, ⟨0, _⟩ => ⟨S8x8192x2, .f32⟩
  | .hbm, ⟨1, _⟩ => ⟨S8x4096x2, .f32⟩
  | .hbm, ⟨2, _⟩ => ⟨S_, .i32⟩
  | .hbm, ⟨3, _⟩ => ⟨S_, .f32⟩
  | .hbm, ⟨4, _⟩ => ⟨S8x2, .f32⟩
  | .hbm, ⟨5, _⟩ => ⟨S8x1x2, .f32⟩
  | .hbm, ⟨6, _⟩ => ⟨S_, .f32⟩
  | .hbm, ⟨7, _⟩ => ⟨S8x1x2, .f32⟩
  | .hbm, ⟨8, _⟩ => ⟨S8x1x2, .f32⟩
  | .hbm, ⟨9, _⟩ => ⟨S8x8192x2, .f32⟩
  | .hbm, ⟨10, _⟩ => ⟨S8x8192x2, .f32⟩
  | .hbm, ⟨11, _⟩ => ⟨S8x8192x2, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x2, .f32⟩
  | .hbm, ⟨17, _⟩ => ⟨S8x2, .f32⟩
  | .hbm, ⟨18, _⟩ => ⟨S8x2, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S_, .f32⟩
  | .hbm, ⟨23, _⟩ => ⟨S8x2, .f32⟩
  | .hbm, ⟨24, _⟩ => ⟨S8x2, .f32⟩
  | .hbm, ⟨25, _⟩ => ⟨S8x2, .f32⟩
  | .hbm, ⟨26, _⟩ => ⟨S_, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8x1x1, .f32⟩
  | .hbm, ⟨36, _⟩ => ⟨S8x2x8192, .f32⟩
  | .hbm, ⟨37, _⟩ => ⟨S8x4096x1, .f32⟩
  | .hbm, ⟨38, _⟩ => ⟨S8x4096, .f32⟩
  | .hbm, ⟨39, _⟩ => ⟨S_, .f32⟩
  | .hbm, ⟨40, _⟩ => ⟨S8, .f32⟩
  | .hbm, ⟨41, _⟩ => ⟨S8x1, .f32⟩
  | .hbm, ⟨42, _⟩ => ⟨S_, .f32⟩
  | .hbm, ⟨43, _⟩ => ⟨S_, .f32⟩
  | .hbm, ⟨44, _⟩ => ⟨S8x1, .f32⟩
  | .hbm, ⟨45, _⟩ => ⟨S8x1, .f32⟩
  | .hbm, ⟨46, _⟩ => ⟨S8x4096, .f32⟩
  | .hbm, ⟨47, _⟩ => ⟨S8x4096, .f32⟩
  | .local _ .vmem, ⟨0, _⟩ => ⟨S8x256x2, .f32⟩
  | .local _ .vmem, ⟨1, _⟩ => ⟨S8x256x2, .f32⟩
  | .local _ .vmem, ⟨2, _⟩ => ⟨S8x2x1024, .f32⟩
  | .local _ .vmem, ⟨3, _⟩ => ⟨S8x2x1024, .f32⟩
  | .local _ .vmem, ⟨4, _⟩ => ⟨S8x1x1, .f32⟩
  | .local _ .vmem, ⟨5, _⟩ => ⟨S8x256x1, .f32⟩
  | .local _ .vmem, ⟨6, _⟩ => ⟨S8x256x1, .f32⟩
  | .local _ .vmem, ⟨7, _⟩ => ⟨S8x256x1, .f32⟩
  | _, _ => ⟨S8x8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_call0_cst : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_cst_0 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_cst_1 : Ref sig .tc := ⟨.hbm, 13, rfl⟩
abbrev main_call0_call0_v8 : Ref sig .tc := ⟨.hbm, 14, rfl⟩
abbrev main_call0_call0_cst_2 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_call0_cst_3 : Ref sig .tc := ⟨.hbm, 19, rfl⟩
abbrev main_call0_call0_v12 : Ref sig .tc := ⟨.hbm, 20, rfl⟩
abbrev main_call0_call0_cst_4 : Ref sig .tc := ⟨.hbm, 21, rfl⟩
abbrev main_call0_call0_call0_v0 : Ref sig .tc := ⟨.hbm, 22, rfl⟩
abbrev main_call0_call0_call0_v1 : Ref sig .tc := ⟨.hbm, 23, rfl⟩
abbrev main_call0_v0 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_cst_0 : Ref sig .tc := ⟨.hbm, 28, rfl⟩
abbrev main_v2 : Ref sig .tc := ⟨.hbm, 29, rfl⟩
abbrev main_v3 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_2 : Ref sig .tc := ⟨.hbm, 39, rfl⟩
abbrev main_v9 : Ref sig .tc := ⟨.hbm, 40, rfl⟩
abbrev main_v10 : Ref sig .tc := ⟨.hbm, 41, rfl⟩
abbrev main_cst_3 : Ref sig .tc := ⟨.hbm, 42, rfl⟩
abbrev main_call2_v0 : Ref sig .tc := ⟨.hbm, 43, rfl⟩
abbrev main_call2_v1 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_19 : BitVec 32 := 0#32
  let v46 : BitVec 1 := Scalar.cmpi .ne v45 c0_i32_19
  v46

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S8x8192x2_S8x2_d1 : S8x8192x2.ReducesTo [1] S8x2
  h_S_ : 0 < S_.numel
  bcast_S8x2_S8x1x2_0_2 : S8x2.BroadcastsInDim S8x1x2 (![0, 2] : Fin 2 → Fin S8x1x2.rank)
  bcast_S_S8x1x2 : S_.BroadcastsInDim S8x1x2 (![] : Fin 0 → Fin S8x1x2.rank)
  bcast_S8x1x2_S8x8192x2_0_1_2 : S8x1x2.BroadcastsInDim S8x8192x2 (![0, 1, 2] : Fin 3 → Fin S8x8192x2.rank)
  bcast_S_S8x2 : S_.BroadcastsInDim S8x2 (![] : Fin 0 → Fin S8x2.rank)
  reducesTo_S8x2_S8_d1 : S8x2.ReducesTo [1] S8
  bcast_S_S8 : S_.BroadcastsInDim S8 (![] : Fin 0 → Fin S8.rank)
  shapeCasts_S8_S8x1x1 : S8.ShapeCasts S8x1x1
  transposes_S8x8192x2_S8x2x8192_0_2_1 : S8x8192x2.Transposes [0, 2, 1] S8x2x8192
  inb_S8x256x1_S8x256x1_0_0_0 : ∀ a, (![0, 0, 0] : Fin 3 → Nat) a + S8x256x1.size a ≤ S8x256x1.size a
  h_S8x256x1 : 0 < S8x256x1.numel
  shapeCasts_S8x256x1_S8x256x1 : S8x256x1.ShapeCasts S8x256x1
  inb_S8x1x1_S8x1x1_0_0_0 : ∀ a, (![0, 0, 0] : Fin 3 → Nat) a + S8x1x1.size a ≤ S8x1x1.size a
  h_S8x1x1 : 0 < S8x1x1.numel
  shapeCasts_S8x1x1_S8x1x1 : S8x1x1.ShapeCasts S8x1x1
  inb_S8x256x2_S8x256x2_0_0_0 : ∀ a, (![0, 0, 0] : Fin 3 → Nat) a + S8x256x2.size a ≤ S8x256x2.size a
  h_S8x256x2 : 0 < S8x256x2.numel
  slices_S8x256x2_o0_0_0_S8x256x1 : S8x256x2.Slices ![0, 0, 0] S8x256x1
  slices_S8x256x2_o0_0_1_S8x256x1 : S8x256x2.Slices ![0, 0, 1] S8x256x1
  broadcasts_S8x1x1_S8x256x1 : S8x1x1.Broadcasts S8x256x1
  broadcasts_S8x1x1_S8x256x2 : S8x1x1.Broadcasts S8x256x2
  inb_S8x2x1024_S8x2x1024_0_0_0 : ∀ a, (![0, 0, 0] : Fin 3 → Nat) a + S8x2x1024.size a ≤ S8x2x1024.size a
  h_S8x2x1024 : 0 < S8x2x1024.numel
  shapeCasts_S8x2x1024_S8x2x1024 : S8x2x1024.ShapeCasts S8x2x1024
  slices_S8x2x1024_o0_0_0_S8x1x1024 : S8x2x1024.Slices ![0, 0, 0] S8x1x1024
  slices_S8x2x1024_o0_1_0_S8x1x1024 : S8x2x1024.Slices ![0, 1, 0] S8x1x1024
  broadcasts_S8x1x1_S8x1x1024 : S8x1x1.Broadcasts S8x1x1024
  broadcasts_S8x256x1_S8x256x1024 : S8x256x1.Broadcasts S8x256x1024
  broadcasts_S8x1x1024_S8x256x1024 : S8x1x1024.Broadcasts S8x256x1024
  reduces_S8x256x1024_S8x256 : S8x256x1024.Reduces [2] S8x256
  shapeCasts_S8x256_S8x256x1 : S8x256.ShapeCasts S8x256x1
  shapeCasts_S8x4096x1_S8x4096 : S8x4096x1.ShapeCasts S8x4096
  reducesTo_S8x4096_S8_d1 : S8x4096.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x4096_0_1 : S8x1.BroadcastsInDim S8x4096 (![0, 1] : Fin 2 → Fin S8x4096.rank)
  dot_S8x256x2_S8x2x1024_S8x256x1024_2_1_1_2_0_0_wf : DotDims.WF S8x256x2 S8x2x1024 S8x256x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x2.size a ≤ S8x4096x2.size a
  hwx0_0 : ∀ i : grid0.Coords, EltTy.bits .f32 = 32 ∨ (Rect.block (s := S8x4096x2) S8x256x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2x1024.size a ≤ S8x2x8192.size a
  hwx0_1 : ∀ i : grid0.Coords, EltTy.bits .f32 = 32 ∨ (Rect.block (s := S8x2x8192) S8x2x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1x1.size a ≤ S8x1x1.size a
  hwx0_2 : ∀ i : grid0.Coords, EltTy.bits .f32 = 32 ∨ (Rect.block (s := S8x1x1) S8x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x1.size a ≤ S8x4096x1.size a
  hwx0_3 : ∀ i : grid0.Coords, EltTy.bits .f32 = 32 ∨ (Rect.block (s := S8x4096x1) S8x256x1.size (cc0_transform_3 i) (hinb0_3 i)).WholeWords (EltTy.packing .f32)

variable [Facts₀]

def dot_S8x256x2_S8x2x1024_S8x256x1024_2_1_1_2_0_0 : DotDims S8x256x2 S8x2x1024 S8x256x1024 where
  lhsContracting := [2]
  rhsContracting := [1]
  lhsNonContracting := [1]
  rhsNonContracting := [2]
  lhsBatch := [0]
  rhsBatch := [0]
  wf := dot_S8x256x2_S8x2x1024_S8x256x1024_2_1_1_2_0_0_wf

abbrev win0_0 : Pipeline.Window sig grid0 :=
  Pipeline.Window.ofSpec (Memref.whole main_arg1) S8x256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8x2x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8x1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S8x256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x8192x2 : Shape := ⟨3, ![8, 8192, 2]⟩
abbrev S8x4096x2 : Shape := ⟨3, ![8, 4096, 2]⟩
abbrev S_ : Shape := ⟨0, ![]⟩
abbrev S8x2 : Shape := ⟨2, ![8, 2]⟩
abbrev S8x1x2 : Shape := ⟨3, ![8, 1, 2]⟩
abbrev S8 : Shape := ⟨1, ![8]⟩
abbrev S8x4096 : Shape := ⟨2, ![8, 4096]⟩
abbrev S8x4096x1 : Shape := ⟨3, ![8, 4096, 1]⟩
abbrev S8x8192 : Shape := ⟨2, ![8, 8192]⟩
abbrev S8x1x8192 : Shape := ⟨3, ![8, 1, 8192]⟩
abbrev S8x4096x8192 : Shape := ⟨3, ![8, 4096, 8192]⟩
abbrev S8x1x1 : Shape := ⟨3, ![8, 1, 1]⟩
abbrev S8x1 : Shape := ⟨2, ![8, 1]⟩

abbrev nBuf : Space → Nat
  | .hbm => 82
  | .vmem => 0
  | .smem => 0
  | _ => 0

abbrev bufTy : (tb : Table) → Fin (tcTables nBuf tb) → BufTy
  | .hbm, ⟨0, _⟩ => ⟨S8x8192x2, .f32⟩
  | .hbm, ⟨1, _⟩ => ⟨S8x4096x2, .f32⟩
  | .hbm, ⟨2, _⟩ => ⟨S_, .i32⟩
  | .hbm, ⟨3, _⟩ => ⟨S_, .f32⟩
  | .hbm, ⟨4, _⟩ => ⟨S8x2, .f32⟩
  | .hbm, ⟨5, _⟩ => ⟨S8x1x2, .f32⟩
  | .hbm, ⟨6, _⟩ => ⟨S_, .f32⟩
  | .hbm, ⟨7, _⟩ => ⟨S8x1x2, .f32⟩
  | .hbm, ⟨8, _⟩ => ⟨S8x1x2, .f32⟩
  | .hbm, ⟨9, _⟩ => ⟨S8x8192x2, .f32⟩
  | .hbm, ⟨10, _⟩ => ⟨S8x8192x2, .f32⟩
  | .hbm, ⟨11, _⟩ => ⟨S8x8192x2, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x2, .f32⟩
  | .hbm, ⟨17, _⟩ => ⟨S8x2, .f32⟩
  | .hbm, ⟨18, _⟩ => ⟨S8x2, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S_, .f32⟩
  | .hbm, ⟨23, _⟩ => ⟨S8x2, .f32⟩
  | .hbm, ⟨24, _⟩ => ⟨S8x2, .f32⟩
  | .hbm, ⟨25, _⟩ => ⟨S8x2, .f32⟩
  | .hbm, ⟨26, _⟩ => ⟨S_, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8x4096x2, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x8192x2, .f32⟩
  | .hbm, ⟨40, _⟩ => ⟨S_, .f32⟩
  | .hbm, ⟨41, _⟩ => ⟨S8x8192, .f32⟩
  | .hbm, ⟨42, _⟩ => ⟨S8x1x8192, .f32⟩
  | .hbm, ⟨43, _⟩ => ⟨S8x4096x8192, .f32⟩
  | .hbm, ⟨44, _⟩ => ⟨S8x4096x8192, .f32⟩
  | .hbm, ⟨45, _⟩ => ⟨S8x4096x8192, .f32⟩
  | .hbm, ⟨46, _⟩ => ⟨S8x4096x8192, .f32⟩
  | .hbm, ⟨47, _⟩ => ⟨S_, .f32⟩
  | .hbm, ⟨48, _⟩ => ⟨S8x4096x8192, .f32⟩
  | .hbm, ⟨49, _⟩ => ⟨S8x4096x8192, .f32⟩
  | .hbm, ⟨50, _⟩ => ⟨S8x4096x8192, .f32⟩
  | .hbm, ⟨51, _⟩ => ⟨S_, .f32⟩
  | .hbm, ⟨52, _⟩ => ⟨S8x4096x8192, .f32⟩
  | .hbm, ⟨53, _⟩ => ⟨S8x4096x8192, .f32⟩
  | .hbm, ⟨54, _⟩ => ⟨S8x1x1, .f32⟩
  | .hbm, ⟨55, _⟩ => ⟨S8x1x1, .f32⟩
  | .hbm, ⟨56, _⟩ => ⟨S8x4096x8192, .f32⟩
  | .hbm, ⟨57, _⟩ => ⟨S8x4096x8192, .f32⟩
  | .hbm, ⟨58, _⟩ => ⟨S8x4096x8192, .f32⟩
  | .hbm, ⟨59, _⟩ => ⟨S8x1, .f32⟩
  | .hbm, ⟨60, _⟩ => ⟨S_, .f32⟩
  | .hbm, ⟨61, _⟩ => ⟨S8x1, .f32⟩
  | .hbm, ⟨62, _⟩ => ⟨S8x1, .f32⟩
  | .hbm, ⟨63, _⟩ => ⟨S_, .f32⟩
  | .hbm, ⟨64, _⟩ => ⟨S8x1, .f32⟩
  | .hbm, ⟨65, _⟩ => ⟨S8x1, .f32⟩
  | .hbm, ⟨66, _⟩ => ⟨S_, .f32⟩
  | .hbm, ⟨67, _⟩ => ⟨S8x4096, .f32⟩
  | .hbm, ⟨68, _⟩ => ⟨S_, .f32⟩
  | .hbm, ⟨69, _⟩ => ⟨S8x4096, .f32⟩
  | .hbm, ⟨70, _⟩ => ⟨S8x4096, .f32⟩
  | .hbm, ⟨71, _⟩ => ⟨S8x4096, .f32⟩
  | .hbm, ⟨72, _⟩ => ⟨S8x4096, .f32⟩
  | .hbm, ⟨73, _⟩ => ⟨S_, .f32⟩
  | .hbm, ⟨74, _⟩ => ⟨S8, .f32⟩
  | .hbm, ⟨75, _⟩ => ⟨S8x1, .f32⟩
  | .hbm, ⟨76, _⟩ => ⟨S_, .f32⟩
  | .hbm, ⟨77, _⟩ => ⟨S_, .f32⟩
  | .hbm, ⟨78, _⟩ => ⟨S8x1, .f32⟩
  | .hbm, ⟨79, _⟩ => ⟨S8x1, .f32⟩
  | .hbm, ⟨80, _⟩ => ⟨S8x4096, .f32⟩
  | .hbm, ⟨81, _⟩ => ⟨S8x4096, .f32⟩
  | _, _ => ⟨S8x8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_call0_cst : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_cst_0 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_cst_1 : Ref sig .tc := ⟨.hbm, 13, rfl⟩
abbrev main_call0_call0_v8 : Ref sig .tc := ⟨.hbm, 14, rfl⟩
abbrev main_call0_call0_cst_2 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_call0_cst_3 : Ref sig .tc := ⟨.hbm, 19, rfl⟩
abbrev main_call0_call0_v12 : Ref sig .tc := ⟨.hbm, 20, rfl⟩
abbrev main_call0_call0_cst_4 : Ref sig .tc := ⟨.hbm, 21, rfl⟩
abbrev main_call0_call0_call0_v0 : Ref sig .tc := ⟨.hbm, 22, rfl⟩
abbrev main_call0_call0_call0_v1 : Ref sig .tc := ⟨.hbm, 23, rfl⟩
abbrev main_call0_v0 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_cst_0 : Ref sig .tc := ⟨.hbm, 28, rfl⟩
abbrev main_v2 : Ref sig .tc := ⟨.hbm, 29, rfl⟩
abbrev main_v3 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_v4 : Ref sig .tc := ⟨.hbm, 34, rfl⟩
abbrev main_v5 : Ref sig .tc := ⟨.hbm, 35, rfl⟩
abbrev main_cst_2 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst_3 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst_4 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_5 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_6 : Ref sig .tc := ⟨.hbm, 60, rfl⟩
abbrev main_v26 : Ref sig .tc := ⟨.hbm, 61, rfl⟩
abbrev main_v27 : Ref sig .tc := ⟨.hbm, 62, rfl⟩
abbrev main_cst_7 : Ref sig .tc := ⟨.hbm, 63, rfl⟩
abbrev main_v28 : Ref sig .tc := ⟨.hbm, 64, rfl⟩
abbrev main_v29 : Ref sig .tc := ⟨.hbm, 65, rfl⟩
abbrev main_cst_8 : Ref sig .tc := ⟨.hbm, 66, rfl⟩
abbrev main_v30 : Ref sig .tc := ⟨.hbm, 67, rfl⟩
abbrev main_cst_9 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_10 : Ref sig .tc := ⟨.hbm, 73, rfl⟩
abbrev main_v35 : Ref sig .tc := ⟨.hbm, 74, rfl⟩
abbrev main_v36 : Ref sig .tc := ⟨.hbm, 75, rfl⟩
abbrev main_cst_11 : Ref sig .tc := ⟨.hbm, 76, rfl⟩
abbrev main_call2_v0 : Ref sig .tc := ⟨.hbm, 77, rfl⟩
abbrev main_call2_v1 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩

abbrev nD : Nat := 1
abbrev τ : Topo := Topo.v7x

variable {F : FTy → Type} [FloatOps F]

class Facts₀ : Prop where
  reducesTo_S8x8192x2_S8x2_d1 : S8x8192x2.ReducesTo [1] S8x2
  h_S_ : 0 < S_.numel
  bcast_S8x2_S8x1x2_0_2 : S8x2.BroadcastsInDim S8x1x2 (![0, 2] : Fin 2 → Fin S8x1x2.rank)
  bcast_S_S8x1x2 : S_.BroadcastsInDim S8x1x2 (![] : Fin 0 → Fin S8x1x2.rank)
  bcast_S8x1x2_S8x8192x2_0_1_2 : S8x1x2.BroadcastsInDim S8x8192x2 (![0, 1, 2] : Fin 3 → Fin S8x8192x2.rank)
  bcast_S_S8x2 : S_.BroadcastsInDim S8x2 (![] : Fin 0 → Fin S8x2.rank)
  reducesTo_S8x2_S8_d1 : S8x2.ReducesTo [1] S8
  bcast_S_S8 : S_.BroadcastsInDim S8 (![] : Fin 0 → Fin S8.rank)
  reducesTo_S8x4096x2_S8x4096_d2 : S8x4096x2.ReducesTo [2] S8x4096
  bcast_S8x4096_S8x4096x1_0_1 : S8x4096.BroadcastsInDim S8x4096x1 (![0, 1] : Fin 2 → Fin S8x4096x1.rank)
  reducesTo_S8x8192x2_S8x8192_d2 : S8x8192x2.ReducesTo [2] S8x8192
  bcast_S8x8192_S8x1x8192_0_2 : S8x8192.BroadcastsInDim S8x1x8192 (![0, 2] : Fin 2 → Fin S8x1x8192.rank)
  bcast_S8x4096x1_S8x4096x8192_0_1_2 : S8x4096x1.BroadcastsInDim S8x4096x8192 (![0, 1, 2] : Fin 3 → Fin S8x4096x8192.rank)
  bcast_S8x1x8192_S8x4096x8192_0_1_2 : S8x1x8192.BroadcastsInDim S8x4096x8192 (![0, 1, 2] : Fin 3 → Fin S8x4096x8192.rank)
  bcast_S_S8x4096x8192 : S_.BroadcastsInDim S8x4096x8192 (![] : Fin 0 → Fin S8x4096x8192.rank)
  bcast_S8_S8x1x1_0 : S8.BroadcastsInDim S8x1x1 (![0] : Fin 1 → Fin S8x1x1.rank)
  bcast_S8x1x1_S8x4096x8192_0_1_2 : S8x1x1.BroadcastsInDim S8x4096x8192 (![0, 1, 2] : Fin 3 → Fin S8x4096x8192.rank)
  bcast_S8_S8x1_0 : S8.BroadcastsInDim S8x1 (![0] : Fin 1 → Fin S8x1.rank)
  bcast_S_S8x1 : S_.BroadcastsInDim S8x1 (![] : Fin 0 → Fin S8x1.rank)
  reducesTo_S8x4096x8192_S8x4096_d2 : S8x4096x8192.ReducesTo [2] S8x4096
  bcast_S_S8x4096 : S_.BroadcastsInDim S8x4096 (![] : Fin 0 → Fin S8x4096.rank)
  bcast_S8x1_S8x4096_0_1 : S8x1.BroadcastsInDim S8x4096 (![0, 1] : Fin 2 → Fin S8x4096.rank)
  reducesTo_S8x4096_S8_d1 : S8x4096.ReducesTo [1] S8
  dot_S8x4096x2_S8x8192x2_S8x4096x8192_2_2_1_1_0_0_wf : DotDims.WF S8x4096x2 S8x8192x2 S8x4096x8192 [2] [2] [1] [1] [0] [0]

variable [Facts₀]

def dot_S8x4096x2_S8x8192x2_S8x4096x8192_2_2_1_1_0_0 : DotDims S8x4096x2 S8x8192x2 S8x4096x8192 where
  lhsContracting := [2]
  rhsContracting := [2]
  lhsNonContracting := [1]
  rhsNonContracting := [1]
  lhsBatch := [0]
  rhsBatch := [0]
  wf := dot_S8x4096x2_S8x8192x2_S8x4096x8192_2_2_1_1_0_0_wf

class Facts : Prop extends Facts₀ where

variable [Facts]
-- ==== Proof.KPieces.lean ====
/-
  What one run of the kernel body leaves behind, case by case, as values.

  The body keeps a running sum in a scratch block: at the first vertex tile of a row block it stores the
  zero block and then `0 + p`; at every later tile `acc + p`, where `p` is the tile's partial sum
  (a function of the three input blocks); at the last tile it also stores the output block, a function of
  the bandwidth block and of the running sum just stored.
-/
import proofs.«149424_j56727928045825_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz3 : (![0, 0, 0] : Fin 3 → Nat) = fun _ => 0 := funext fun a => by fin_cases a <;> rfl

/-- A middle vertex tile: the scratch block ends at `acc + p`. -/
theorem sout_B (c : Dev nD) (i : grid0.Coords) (arg2 : Memref sig .tc .vmem S8x256x2 .f32) (harg2 : arg2.IsWhole) (arg3 : Memref sig .tc .vmem S8x2x1024 .f32) (harg3 : arg3.IsWhole) (arg4 : Memref sig .tc .vmem S8x1x1 .f32) (harg4 : arg4.IsWhole) (arg5 : Memref sig .tc .vmem S8x256x1 .f32) (harg5 : arg5.IsWhole) (arg6 : Memref sig .tc .vmem S8x256x1 .f32) (harg6 : arg6.IsWhole) (hc0 : ¬cond0_0 i) (hc1 : ¬cond0_1 i)
    (x0 : Vec F S8x256x2 .f32) (x1 : Vec F S8x2x1024 .f32) (x2 : Vec F S8x1x1 .f32) (xs0 : Vec F S8x256x1 .f32) :
    sout0_B_0 c i arg2 harg2 arg3 harg3 arg4 harg4 arg5 harg5 arg6 harg6 hc0 hc1 x0 x1 x2 xs0 = k0_pay1 (k0_pay5 x2 x0 x1) xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz3]
  simp only [View.readAt_eq_ld, harg2.read_unread, harg3.read_unread, harg4.read_unread, harg6.read_unread,
    View.ld_unit_zero (S := S8x256x1) hz3, View.ld_unit_zero (S := S8x256x2) hz3, View.ld_unit_zero (S := S8x2x1024) hz3,
    View.ld_unit_zero (S := S8x1x1) hz3]

/-- The first vertex tile: the scratch block is reset and ends at `0 + p`. -/
theorem sout_A (c : Dev nD) (i : grid0.Coords) (arg2 : Memref sig .tc .vmem S8x256x2 .f32) (harg2 : arg2.IsWhole) (arg3 : Memref sig .tc .vmem S8x2x1024 .f32) (harg3 : arg3.IsWhole) (arg4 : Memref sig .tc .vmem S8x1x1 .f32) (harg4 : arg4.IsWhole) (arg5 : Memref sig .tc .vmem S8x256x1 .f32) (harg5 : arg5.IsWhole) (arg6 : Memref sig .tc .vmem S8x256x1 .f32) (harg6 : arg6.IsWhole) (hc0 : cond0_0 i) (hc1 : ¬cond0_1 i)
    (x0 : Vec F S8x256x2 .f32) (x1 : Vec F S8x2x1024 .f32) (x2 : Vec F S8x1x1 .f32) :
    sout0_A_0 c i arg2 harg2 arg3 harg3 arg4 harg4 arg5 harg5 arg6 harg6 hc0 hc1 x0 x1 x2 = k0_pay1 (k0_pay5 x2 x0 x1) (k0_pay3 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S8x256x1) hz3, View.readCov_unit_zero (S := S8x256x1) _ hz3]
  simp only [View.readAt_eq_ld, harg2.read_unread, harg3.read_unread, harg4.read_unread,
    View.ld_unit_zero (S := S8x256x1) hz3, View.ld_unit_zero (S := S8x256x2) hz3, View.ld_unit_zero (S := S8x2x1024) hz3,
    View.ld_unit_zero (S := S8x1x1) hz3]

/-- The last vertex tile: the scratch block ends at `acc + p` … -/
theorem sout_C (c : Dev nD) (i : grid0.Coords) (arg2 : Memref sig .tc .vmem S8x256x2 .f32) (harg2 : arg2.IsWhole) (arg3 : Memref sig .tc .vmem S8x2x1024 .f32) (harg3 : arg3.IsWhole) (arg4 : Memref sig .tc .vmem S8x1x1 .f32) (harg4 : arg4.IsWhole) (arg5 : Memref sig .tc .vmem S8x256x1 .f32) (harg5 : arg5.IsWhole) (arg6 : Memref sig .tc .vmem S8x256x1 .f32) (harg6 : arg6.IsWhole) (hc0 : ¬cond0_0 i) (hc1 : cond0_1 i)
    (x0 : Vec F S8x256x2 .f32) (x1 : Vec F S8x2x1024 .f32) (x2 : Vec F S8x1x1 .f32) (xs0 : Vec F S8x256x1 .f32) :
    sout0_C_0 c i arg2 harg2 arg3 harg3 arg4 harg4 arg5 harg5 arg6 harg6 hc0 hc1 x0 x1 x2 xs0 = k0_pay1 (k0_pay5 x2 x0 x1) xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz3]
  simp only [View.readAt_eq_ld, harg2.read_unread, harg3.read_unread, harg4.read_unread, harg6.read_unread,
    View.ld_unit_zero (S := S8x256x1) hz3, View.ld_unit_zero (S := S8x256x2) hz3, View.ld_unit_zero (S := S8x2x1024) hz3,
    View.ld_unit_zero (S := S8x1x1) hz3]

/-- … and the output block at the scaled mean of that sum. -/
theorem out_C (c : Dev nD) (i : grid0.Coords) (arg2 : Memref sig .tc .vmem S8x256x2 .f32) (harg2 : arg2.IsWhole) (arg3 : Memref sig .tc .vmem S8x2x1024 .f32) (harg3 : arg3.IsWhole) (arg4 : Memref sig .tc .vmem S8x1x1 .f32) (harg4 : arg4.IsWhole) (arg5 : Memref sig .tc .vmem S8x256x1 .f32) (harg5 : arg5.IsWhole) (arg6 : Memref sig .tc .vmem S8x256x1 .f32) (harg6 : arg6.IsWhole) (hc0 : ¬cond0_0 i) (hc1 : cond0_1 i)
    (x0 : Vec F S8x256x2 .f32) (x1 : Vec F S8x2x1024 .f32) (x2 : Vec F S8x1x1 .f32) (xs0 : Vec F S8x256x1 .f32) :
    out0_C_3 c i arg2 harg2 arg3 harg3 arg4 harg4 arg5 harg5 arg6 harg6 hc0 hc1 x0 x1 x2 xs0 = k0_pay2 (k0_pay4 x2) (k0_pay1 (k0_pay5 x2 x0 x1) xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S8x256x1) _ hz3]
  simp only [View.readAt_eq_ld, harg2.read_unread, harg3.read_unread, harg4.read_unread, harg6.read_unread,
    View.ld_unit_zero (S := S8x256x1) hz3, View.ld_unit_zero (S := S8x256x2) hz3, View.ld_unit_zero (S := S8x2x1024) hz3,
    View.ld_unit_zero (S := S8x1x1) hz3]

end Cert.KernelIdeal.KValue
end
-- ==== Proof.KLayout.lean ====
/-
  The layout operations of the kernel body, each read at one entry, at the ideal values.

  A unit-stride slice reads its operand shifted by the offsets; a broadcast reads its operand at the coordinates it
  keeps, zero on the unit axes it spreads; a cast that appends a unit axis reads the same row-major position; the
  sum over the lanes is a sum over `Fin 1024`; and the batched product of a [8,256,2] block with a [8,2,1024] block
  into a zero accumulator is, at (b, r, c), the sum over the two contracted coordinates of the entries' products.
-/
import proofs.«149424_j56727928045825_2_alg».proof.Proof.Gen.KernelIdeal.Skeleton
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.KValue

open Cert.KernelIdeal Cert.KernelIdeal.Gen

/-! ## The layout operations of the body, each read at an entry -/

theorem sliceS0 (x : FVec Ideal S8x256x2 .f32) (h : S8x256x2.Slices ![0, 0, 0] S8x256x1) (b : Fin 8) (r : Fin 256) :
    extractStridedSlice S8x256x1 ![0, 0, 0] x h (ix3 b r 0) = x (ix3 b r 0) :=
  extractStridedSlice_apply _ x h _ _ fun a => by
    match a with
    | ⟨0, _⟩ => exact (Nat.zero_add _).symm
    | ⟨1, _⟩ => exact (Nat.zero_add _).symm
    | ⟨2, _⟩ => rfl

theorem sliceS1 (x : FVec Ideal S8x256x2 .f32) (h : S8x256x2.Slices ![0, 0, 1] S8x256x1) (b : Fin 8) (r : Fin 256) :
    extractStridedSlice S8x256x1 ![0, 0, 1] x h (ix3 b r 0) = x (ix3 b r 1) :=
  extractStridedSlice_apply _ x h _ _ fun a => by
    match a with
    | ⟨0, _⟩ => exact (Nat.zero_add _).symm
    | ⟨1, _⟩ => exact (Nat.zero_add _).symm
    | ⟨2, _⟩ => rfl

theorem sliceT0 (x : FVec Ideal S8x2x1024 .f32) (h : S8x2x1024.Slices ![0, 0, 0] S8x1x1024) (b : Fin 8) (c : Fin 1024) :
    extractStridedSlice S8x1x1024 ![0, 0, 0] x h (ix3 b 0 c) = x (ix3 b 0 c) :=
  extractStridedSlice_apply _ x h _ _ fun a => by
    match a with
    | ⟨0, _⟩ => exact (Nat.zero_add _).symm
    | ⟨1, _⟩ => rfl
    | ⟨2, _⟩ => exact (Nat.zero_add _).symm

theorem sliceT1 (x : FVec Ideal S8x2x1024 .f32) (h : S8x2x1024.Slices ![0, 1, 0] S8x1x1024) (b : Fin 8) (c : Fin 1024) :
    extractStridedSlice S8x1x1024 ![0, 1, 0] x h (ix3 b 0 c) = x (ix3 b 1 c) :=
  extractStridedSlice_apply _ x h _ _ fun a => by
    match a with
    | ⟨0, _⟩ => exact (Nat.zero_add _).symm
    | ⟨1, _⟩ => rfl
    | ⟨2, _⟩ => exact (Nat.zero_add _).symm

/-- A per-batch scalar [8,1,1] spread over a row block [8,256,1]. -/
theorem spread_rows (v : FVec Ideal S8x1x1 .f32) (h : S8x1x1.Broadcasts S8x256x1) (b : Fin 8) (r : Fin 256) :
    broadcastTo S8x256x1 v h (ix3 b r 0) = v (ix3 b 0 0) :=
  broadcastTo_apply v h _ _ fun a => by
    match a with
    | ⟨0, _⟩ => rfl
    | ⟨1, _⟩ => rfl
    | ⟨2, _⟩ => rfl

/-- A per-batch scalar spread over an input block [8,256,2]. -/
theorem spread_rows2 (v : FVec Ideal S8x1x1 .f32) (h : S8x1x1.Broadcasts S8x256x2) (b : Fin 8) (r : Fin 256) (k : Fin 2) :
    broadcastTo S8x256x2 v h (ix3 b r k) = v (ix3 b 0 0) :=
  broadcastTo_apply v h _ _ fun a => by
    match a with
    | ⟨0, _⟩ => rfl
    | ⟨1, _⟩ => rfl
    | ⟨2, _⟩ => rfl

/-- A per-batch scalar spread over a lane row [8,1,1024]. -/
theorem spread_lanes (v : FVec Ideal S8x1x1 .f32) (h : S8x1x1.Broadcasts S8x1x1024) (b : Fin 8) (c : Fin 1024) :
    broadcastTo S8x1x1024 v h (ix3 b 0 c) = v (ix3 b 0 0) :=
  broadcastTo_apply v h _ _ fun a => by
    match a with
    | ⟨0, _⟩ => rfl
    | ⟨1, _⟩ => rfl
    | ⟨2, _⟩ => rfl

/-- A column [8,256,1] spread along the lanes. -/
theorem spread_col (v : FVec Ideal S8x256x1 .f32) (h : S8x256x1.Broadcasts S8x256x1024) (b : Fin 8) (r : Fin 256) (c : Fin 1024) :
    broadcastTo S8x256x1024 v h (ix3 b r c) = v (ix3 b r 0) :=
  broadcastTo_apply v h _ _ fun a => by
    match a with
    | ⟨0, _⟩ => rfl
    | ⟨1, _⟩ => rfl
    | ⟨2, _⟩ => rfl

/-- A lane row [8,1,1024] spread along the rows. -/
theorem spread_row (v : FVec Ideal S8x1x1024 .f32) (h : S8x1x1024.Broadcasts S8x256x1024) (b : Fin 8) (r : Fin 256) (c : Fin 1024) :
    broadcastTo S8x256x1024 v h (ix3 b r c) = v (ix3 b 0 c) :=
  broadcastTo_apply v h _ _ fun a => by
    match a with
    | ⟨0, _⟩ => rfl
    | ⟨1, _⟩ => rfl
    | ⟨2, _⟩ => rfl

/-- The lane sums [8,256] given their trailing unit axis back. -/
theorem keep_unit (v : FVec Ideal S8x256 .f32) (h : S8x256.ShapeCasts S8x256x1) (b : Fin 8) (r : Fin 256) :
    shapeCast S8x256x1 v h (ix3 b r 0) = v (ix2 b r) :=
  shapeCast_apply v h _ _ (by
    rw [Shape.rowMajor_val_three, Shape.rowMajor_val_two]
    show b.val * 256 + r.val = (b.val * 256 + r.val) * 1 + 0
    omega)

/-- The sum over the lanes of a [8,256,1024] block, at (b, r). -/
theorem lane_sum (src : FVec Ideal S8x256x1024 .f32) (h : S8x256x1024.Reduces [2] S8x256) (hφ : FKind.Formats .f32)
    (hacc : (0x00000000#32 : BitVec 32) = 0x00000000#32) (b : Fin 8) (r : Fin 256) :
    multiReduction (F := Ideal) .add [2] S8x256 src 0x00000000#32 h hφ hacc (ix2 b r) = ∑ c : Fin 1024, src (ix3 b r c) := by
  refine (Ideal.multiReduction_add_single src 0x00000000#32 h hφ hacc (ix2 b r)).trans ?_
  refine Finset.sum_congr rfl fun c _ => congrArg src ?_
  funext a; apply Fin.ext
  match a with
  | ⟨0, _⟩ => rfl
  | ⟨1, _⟩ => rfl
  | ⟨2, _⟩ => rfl

/-- The batched product [8,256,2] × [8,2,1024] into a zero accumulator, at (b, r, c). -/
theorem cross_apply (l : FVec Ideal S8x256x2 .f32) (rr : FVec Ideal S8x2x1024 .f32) (prec : Option ContractPrecision)
    (b : Fin 8) (r : Fin 256) (c : Fin 1024) :
    matmul (F := Ideal) dot_S8x256x2_S8x2x1024_S8x256x1024_2_1_1_2_0_0 prec l rr (constant S8x256x1024 .f32 0x00000000#32) (ix3 b r c)
      = ∑ k : Fin 2, l (ix3 b r k) * rr (ix3 b k c) := by
  show FloatOps.matmul _ prec l rr _ (ix3 b r c) = _
  rw [Ideal.matmul_constant_zero_apply,
    ← Equiv.sum_comp (contrEquiv1 dot_S8x256x2_S8x2x1024_S8x256x1024_2_1_1_2_0_0 2 rfl rfl).symm]
  refine Finset.sum_congr rfl fun k _ => ?_
  have c3 := contrEquiv1_symm_val dot_S8x256x2_S8x2x1024_S8x256x1024_2_1_1_2_0_0 2 rfl rfl k
  have l3 : dot_S8x256x2_S8x2x1024_S8x256x1024_2_1_1_2_0_0.lhsIdx (ix3 b r c)
      ((contrEquiv1 dot_S8x256x2_S8x2x1024_S8x256x1024_2_1_1_2_0_0 2 rfl rfl).symm k) = ix3 b r k := by
    funext ax; apply Fin.ext
    match ax with
    | ⟨0, _⟩ => simp [DotDims.lhsIdx, dot_S8x256x2_S8x2x1024_S8x256x1024_2_1_1_2_0_0]; rfl
    | ⟨1, _⟩ => simp [DotDims.lhsIdx, dot_S8x256x2_S8x2x1024_S8x256x1024_2_1_1_2_0_0]; rfl
    | ⟨2, _⟩ => simp [DotDims.lhsIdx, dot_S8x256x2_S8x2x1024_S8x256x1024_2_1_1_2_0_0]; exact c3
  have r3 : dot_S8x256x2_S8x2x1024_S8x256x1024_2_1_1_2_0_0.rhsIdx (ix3 b r c)
      ((contrEquiv1 dot_S8x256x2_S8x2x1024_S8x256x1024_2_1_1_2_0_0 2 rfl rfl).symm k) = ix3 b k c := by
    funext ax; apply Fin.ext
    match ax with
    | ⟨0, _⟩ => simp [DotDims.rhsIdx, dot_S8x256x2_S8x2x1024_S8x256x1024_2_1_1_2_0_0]; rfl
    | ⟨1, _⟩ => simp [DotDims.rhsIdx, dot_S8x256x2_S8x2x1024_S8x256x1024_2_1_1_2_0_0]; exact c3
    | ⟨2, _⟩ => simp [DotDims.rhsIdx, dot_S8x256x2_S8x2x1024_S8x256x1024_2_1_1_2_0_0]; rfl
  rw [l3, r3]

end Cert.KernelIdeal.KValue

end
-- ==== Proof.KPayload.lean ====
/-
  The kernel body's arithmetic read entry by entry, at the ideal values.

  For a batch `b`, a row `r` of the grid-point block and a lane `c` of the vertex tile, with `σ` the bandwidth
  entry of `b`, `ι = 1 / (σ·σ)` and `γ = c₁ · ι`:
    the tile's partial sum at (b, r) is  Σ_c exp ((Σ_k (s[b,r,k] · (−2 · γ)) · t[b,k,c] + γ · |s[b,r]|²) + γ · |t[b,·,c]|²),
    the running sum adds it to what the scratch block held, and the output is (c₂ · ι) · (sum · 2⁻¹³).
-/
import proofs.«149424_j56727928045825_2_alg».proof.Proof.KLayout

noncomputable section

open Idealize.ShloMosaic Idealize.ShloMosaic.ValueIdx

namespace Cert.KernelIdeal.KValue

open Cert.KernelIdeal Cert.KernelIdeal.Gen

theorem exp_at {s : Shape} (v : FVec Ideal s .f32) (i : s.Idx) : exp v i = Ideal.exp (v i) := rfl

/-- The reset block is zero everywhere. -/
theorem pay3_apply (j : S8x256x1.Idx) : k0_pay3 (F := Ideal) j = Ideal.ofBits .f32 0x00000000#32 := by
  unfold k0_pay3
  rw [shapeCast_self]
  rfl

/-- The running sum: what the scratch held plus the tile's partial sum. -/
theorem pay1_apply (p acc : Vec Ideal S8x256x1 .f32) (j : S8x256x1.Idx) : k0_pay1 (F := Ideal) p acc j = acc j + p j := by
  unfold k0_pay1
  rw [shapeCast_self]
  rfl

/-- `ι = 1 / (σ·σ)`. -/
theorem pay4_apply (x2 : Vec Ideal S8x1x1 .f32) (j : S8x1x1.Idx) :
    k0_pay4 (F := Ideal) x2 j = Ideal.div (Ideal.ofBits .f32 0x3F800000#32) (x2 j * x2 j) := by
  unfold k0_pay4
  rw [shapeCast_self]
  rfl

/-- The output block: `(c₂ · ι) · (sum · 2⁻¹³)`. -/
theorem pay2_apply (v7 : FVec Ideal S8x1x1 .f32) (acc : Vec Ideal S8x256x1 .f32) (b : Fin 8) (r : Fin 256) :
    k0_pay2 (F := Ideal) v7 acc (ix3 b r 0)
      = (Ideal.ofBits .f32 0x404D55D0#32 * v7 (ix3 b 0 0)) * (acc (ix3 b r 0) * Ideal.ofBits .f32 0x39000000#32) := by
  unfold k0_pay2
  simp only [mulf_apply, spread_rows, broadcast_apply]
  rfl

/-- The tile's partial sum. -/
theorem pay5_apply (x2 : Vec Ideal S8x1x1 .f32) (x0 : Vec Ideal S8x256x2 .f32) (x1 : Vec Ideal S8x2x1024 .f32) (b : Fin 8) (r : Fin 256) :
    k0_pay5 (F := Ideal) x2 x0 x1 (ix3 b r 0)
      = ∑ c : Fin 1024, Ideal.exp
          (((∑ k : Fin 2, (x0 (ix3 b r k) * (Ideal.ofBits .f32 0xC0000000#32 * (Ideal.ofBits .f32 0xC1214518#32 * k0_pay4 (F := Ideal) x2 (ix3 b 0 0)))) * x1 (ix3 b k c))
            + (Ideal.ofBits .f32 0xC1214518#32 * k0_pay4 (F := Ideal) x2 (ix3 b 0 0)) * (x0 (ix3 b r 0) * x0 (ix3 b r 0) + x0 (ix3 b r 1) * x0 (ix3 b r 1)))
            + (Ideal.ofBits .f32 0xC1214518#32 * k0_pay4 (F := Ideal) x2 (ix3 b 0 0)) * (x1 (ix3 b 0 c) * x1 (ix3 b 0 c) + x1 (ix3 b 1 c) * x1 (ix3 b 1 c))) := by
  unfold k0_pay5
  refine (keep_unit _ _ b r).trans ?_
  refine (lane_sum _ _ _ _ b r).trans ?_
  refine Finset.sum_congr rfl fun c _ => ?_
  simp only [exp_at, addf_apply, mulf_apply, cross_apply, spread_col, spread_row, spread_rows, spread_rows2,
    spread_lanes, sliceS0, sliceS1, sliceT0, sliceT1, shapeCast_self, broadcast_apply]
  rfl

end Cert.KernelIdeal.KValue

end
-- ==== Proof.Terms.lean ====
/-
  The three host computations both programs share or that the reference alone performs, each as ONE
  pure function of whole arrays, written operation for operation as the reference states them.

  * `Sigma T`: the per-batch bandwidth.  For each batch `b` and coordinate `k ∈ {0,1}` the unbiased
    variance of the 8192 vertices `T[b,·,k]` (mean, centred squares, their sum divided by `8192 − 1`),
    its square root; the two roots are averaged and the average is clipped below at a positive constant.
  * `RefKH sg T S`: the Gaussian kernel estimate as the reference computes it,
    `c · sg[b]^(−2) · (1/8192) Σ_j exp (c' · (|S[b,i]|² + |T[b,j]|² − 2 ⟨S[b,i], T[b,j]⟩) / sg[b]²)`.
  * `Tail kh`: the normalisation `kh[b,i] / max(ε, Σ_i kh[b,i])`.
-/
import proofs.«149424_j56727928045825_2_alg».proof.ReferenceIdeal
import proofs.«149424_j56727928045825_2_alg».proof.Proof.Gen.ReferenceIdeal
import Idealize.ShloMosaic.PureOps.Ideal

noncomputable section

namespace Cert.Hist

open Idealize.ShloMosaic Idealize.SL.Sem Cert.ReferenceIdeal Cert.ReferenceIdeal.Facts₀

/-- The scalar zero every host sum starts from. -/
def zero0 : FVec Ideal S_ .f32 := constant (F := Ideal) S_ .f32 0x00000000#32

/-- The mean of the 8192 vertices, per batch and coordinate, kept as an [8,1,2] array. -/
def Mean (T : FVec Ideal S8x8192x2 .f32) : FVec Ideal S8x1x2 .f32 :=
  Host.divf (F := Ideal)
    (broadcastInDim S8x1x2 ![0, 2] bcast_S8x2_S8x1x2_0_2 (Host.reduceAdd (F := Ideal) T zero0 reducesTo_S8x8192x2_S8x2_d1 h_S_))
    (broadcastInDim S8x1x2 ![] bcast_S_S8x1x2 (constant (F := Ideal) S_ .f32 0x46000000#32))

/-- The vertices minus their mean. -/
def Centered (T : FVec Ideal S8x8192x2 .f32) : FVec Ideal S8x8192x2 .f32 :=
  subf T (broadcastInDim S8x8192x2 ![0, 1, 2] bcast_S8x1x2_S8x8192x2_0_1_2 (Mean T))

/-- The divisor of the unbiased variance: 8192 minus the (integer) one, as a scalar. -/
def NMinus1 : FVec Ideal S_ .f32 :=
  subf (constant (F := Ideal) S_ .f32 0x46000000#32) (sitofp .f32 (constantI S_ 32 1#32))

/-- The unbiased variance per batch and coordinate (guarded by `8192 − 1 > 0`, as the source guards it). -/
def Var (T : FVec Ideal S8x8192x2 .f32) : FVec Ideal S8x2 .f32 :=
  select (broadcastInDim S8x2 ![] bcast_S_S8x2 (cmpf .ogt NMinus1 zero0))
    (Host.divf (F := Ideal)
      (Host.reduceAdd (F := Ideal) (mulf (Centered T) (Centered T)) zero0 reducesTo_S8x8192x2_S8x2_d1 h_S_)
      (broadcastInDim S8x2 ![] bcast_S_S8x2 NMinus1))
    (broadcastInDim S8x2 ![] bcast_S_S8x2 (constant (F := Ideal) S_ .f32 0x7FC00000#32))

/-- The bandwidth: the mean of the two standard deviations, clipped below. -/
def Sigma (T : FVec Ideal S8x8192x2 .f32) : FVec Ideal S8 .f32 :=
  maximumf (broadcastInDim S8 ![] bcast_S_S8 (constant (F := Ideal) S_ .f32 0x3C820821#32))
    (Host.divf (F := Ideal)
      (Host.reduceAdd (F := Ideal) (Host.sqrt (F := Ideal) (Var T)) zero0 reducesTo_S8x2_S8_d1 h_S_)
      (broadcastInDim S8 ![] bcast_S_S8 (constant (F := Ideal) S_ .f32 0x40000000#32)))

/-- The squared distances `|S[b,i]|² + |T[b,j]|² − 2 ⟨S[b,i], T[b,j]⟩`, as an [8,4096,8192] array. -/
def SqDist (T : FVec Ideal S8x8192x2 .f32) (S : FVec Ideal S8x4096x2 .f32) : FVec Ideal S8x4096x8192 .f32 :=
  subf
    (addf
      (broadcastInDim S8x4096x8192 ![0, 1, 2] bcast_S8x4096x1_S8x4096x8192_0_1_2
        (broadcastInDim S8x4096x1 ![0, 1] bcast_S8x4096_S8x4096x1_0_1
          (Host.reduceAdd (F := Ideal) (mulf S S) zero0 reducesTo_S8x4096x2_S8x4096_d2 h_S_)))
      (broadcastInDim S8x4096x8192 ![0, 1, 2] bcast_S8x1x8192_S8x4096x8192_0_1_2
        (broadcastInDim S8x1x8192 ![0, 2] bcast_S8x8192_S8x1x8192_0_2
          (Host.reduceAdd (F := Ideal) (mulf T T) zero0 reducesTo_S8x8192x2_S8x8192_d2 h_S_))))
    (mulf (broadcastInDim S8x4096x8192 ![] bcast_S_S8x4096x8192 (constant (F := Ideal) S_ .f32 0x40000000#32))
      (Host.dotGeneral (F := Ideal) dot_S8x4096x2_S8x8192x2_S8x4096x8192_2_2_1_1_0_0 none S T))

/-- The Gaussian weights `exp (c' · dist / sg²)`. -/
def Weights (sg : FVec Ideal S8 .f32) (T : FVec Ideal S8x8192x2 .f32) (S : FVec Ideal S8x4096x2 .f32) :
    FVec Ideal S8x4096x8192 .f32 :=
  Host.exp (F := Ideal)
    (Host.divf (F := Ideal)
      (mulf (broadcastInDim S8x4096x8192 ![] bcast_S_S8x4096x8192 (constant (F := Ideal) S_ .f32 0xC1214518#32)) (SqDist T S))
      (broadcastInDim S8x4096x8192 ![0, 1, 2] bcast_S8x1x1_S8x4096x8192_0_1_2
        (mulf (broadcastInDim S8x1x1 ![0] bcast_S8_S8x1x1_0 sg) (broadcastInDim S8x1x1 ![0] bcast_S8_S8x1x1_0 sg))))

/-- The kernel estimate as the reference computes it. -/
def RefKH (sg : FVec Ideal S8 .f32) (T : FVec Ideal S8x8192x2 .f32) (S : FVec Ideal S8x4096x2 .f32) :
    FVec Ideal S8x4096 .f32 :=
  mulf
    (broadcastInDim S8x4096 ![0, 1] bcast_S8x1_S8x4096_0_1
      (mulf (broadcastInDim S8x1 ![] bcast_S_S8x1 (constant (F := Ideal) S_ .f32 0x404D55D0#32))
        (Host.powf (F := Ideal) (broadcastInDim S8x1 ![0] bcast_S8_S8x1_0 sg)
          (broadcastInDim S8x1 ![] bcast_S_S8x1 (constant (F := Ideal) S_ .f32 0xC0000000#32)))))
    (Host.divf (F := Ideal)
      (Host.reduceAdd (F := Ideal) (Weights sg T S) zero0 reducesTo_S8x4096x8192_S8x4096_d2 h_S_)
      (broadcastInDim S8x4096 ![] bcast_S_S8x4096 (constant (F := Ideal) S_ .f32 0x46000000#32)))

/-- The normalisation to a histogram: each row divided by its sum clipped below. -/
def Tail (kh : FVec Ideal S8x4096 .f32) : FVec Ideal S8x4096 .f32 :=
  Host.divf (F := Ideal) kh
    (broadcastInDim S8x4096 ![0, 1] bcast_S8x1_S8x4096_0_1
      (maximumf (broadcastInDim S8x1 ![] bcast_S_S8x1 (constant (F := Ideal) S_ .f32 0x3727C5AC#32))
        (broadcastInDim S8x1 ![0] bcast_S8_S8x1_0
          (Host.reduceAdd (F := Ideal) kh zero0 reducesTo_S8x4096_S8_d1 h_S_))))

end Cert.Hist

end
-- ==== Proof.Forms.lean ====
/-
  The two closed forms the certificate compares, as plain formulas on the extended reals, for ONE batch and ONE
  grid point: `σ` the batch's bandwidth, `s` the grid point's two coordinates, `T j` the two coordinates of
  vertex `j`.

  * `KForm`: what the kernel leaves. With `ι = 1/(σ·σ)` and `γ = c₁·ι` the exponent of a pair is
    `(Σ_k (s_k·(−2·γ))·t_k + γ·|s|²) + γ·|t|²`; the 8192 vertices are swept in 8 tiles of 1024, each tile's
    exponentials summed, the tiles' sums accumulated in order from zero, and the result is
    `(c₂·ι)·(sum·2⁻¹³)`.
  * `RForm`: what the reference computes, `(c₂·σ^(−2))·((0 + Σ_j exp (c₁·((|s|² + |t_j|²) − 2·⟨s,t_j⟩) / (σ·σ))) / 8192)`.
-/
import Idealize.ShloMosaic.PureOps.Ideal

noncomputable section

namespace Cert.Hist

open Idealize.ShloMosaic

abbrev cZero : EReal := Ideal.ofBits .f32 0x00000000#32
abbrev cOne : EReal := Ideal.ofBits .f32 0x3F800000#32
abbrev cTwo : EReal := Ideal.ofBits .f32 0x40000000#32
abbrev cNegTwo : EReal := Ideal.ofBits .f32 0xC0000000#32
abbrev cN : EReal := Ideal.ofBits .f32 0x46000000#32
abbrev cInvN : EReal := Ideal.ofBits .f32 0x39000000#32
abbrev cCN : EReal := Ideal.ofBits .f32 0xC1214518#32
abbrev cCF : EReal := Ideal.ofBits .f32 0x404D55D0#32

/-- `ι = 1/(σ·σ)`, as the kernel forms it. -/
def inv2 (σ : EReal) : EReal := Ideal.div cOne (σ * σ)

/-- The kernel's exponent for one (grid point, vertex) pair. -/
def kArg (σ : EReal) (s t : Fin 2 → EReal) : EReal :=
  ((∑ k : Fin 2, (s k * (cNegTwo * (cCN * inv2 σ))) * t k) + (cCN * inv2 σ) * (s 0 * s 0 + s 1 * s 1))
    + (cCN * inv2 σ) * (t 0 * t 0 + t 1 * t 1)

/-- Vertex `c` of tile `a` (for `a < 8` it is vertex `1024·a + c`). -/
def tile (a : ℕ) (c : Fin 1024) : Fin 8192 := ⟨(1024 * a + c.val) % 8192, Nat.mod_lt _ (by norm_num)⟩

/-- One tile's sum of exponentials. -/
def kPart (σ : EReal) (s : Fin 2 → EReal) (T : Fin 8192 → Fin 2 → EReal) (a : ℕ) : EReal :=
  ∑ c : Fin 1024, Ideal.exp (kArg σ s (T (tile a c)))

/-- The running sum after tile `n`: from zero, tile by tile, in order. -/
def kAcc (σ : EReal) (s : Fin 2 → EReal) (T : Fin 8192 → Fin 2 → EReal) : ℕ → EReal
  | 0 => cZero + kPart σ s T 0
  | n + 1 => kAcc σ s T n + kPart σ s T (n + 1)

/-- What the kernel leaves for the pair (batch, grid point). -/
def KForm (σ : EReal) (s : Fin 2 → EReal) (T : Fin 8192 → Fin 2 → EReal) : EReal :=
  (cCF * inv2 σ) * (kAcc σ s T 7 * cInvN)

/-- What the reference computes for it. -/
def RForm (σ : EReal) (s : Fin 2 → EReal) (T : Fin 8192 → Fin 2 → EReal) : EReal :=
  (cCF * Ideal.pow σ cNegTwo) *
    Ideal.div
      (cZero + ∑ j : Fin 8192, Ideal.exp
        (Ideal.div (cCN * (((cZero + ∑ k : Fin 2, s k * s k) + (cZero + ∑ k : Fin 2, T j k * T j k)) - cTwo * ∑ k : Fin 2, s k * T j k))
          (σ * σ)))
      cN

end Cert.Hist

end
-- ==== Proof.KBlocks.lean ====
/-
  What the region finds in its three input arrays, and each input block read entry by entry.

  The grid-point array is the second argument itself; the vertex array reaches the region transposed to
  [8,2,8192]; the bandwidth reaches it as an [8,1,1] array. Point `t = 8·i + j` of the 16 × 8 grid reads
  rows `256·i …` of the first and lanes `1024·j …` of the second.
-/
import proofs.«149424_j56727928045825_2_alg».proof.Proof.Gen.KernelIdeal.Frame
import proofs.«149424_j56727928045825_2_alg».proof.Proof.Terms
import Idealize.ShloMosaic.Lib.Pipeline.Value
import Idealize.ShloMosaic.Lib.StableHlo.Run
import Idealize.ShloMosaic.Lib.ValueIdx
import Idealize.ShloMosaic.Lib.ValueLayout
import proofs.«149424_j56727928045825_2_alg».proof.Proof.Forms

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ)

attribute [local irreducible] Host.reduceAdd Host.divf Host.sqrt broadcastInDim select cmpf subf mulf maximumf sitofp constant constantI shapeCast in
set_option maxRecDepth 8192 in
set_option maxHeartbeats 1000000 in
/-- The bandwidth array as the region finds it: the shared host chain, given two unit axes. -/
theorem V_sigma (c : Dev nD) :
    (V m c main_v5 : S8x1x1.Idx → EReal)
      = shapeCast S8x1x1 (Cert.Hist.Sigma (m ((c : Thread nD τ).loc main_arg0))) shapeCasts_S8_S8x1x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

/-- The vertex array as the region finds it: transposed. -/
theorem V_Tt (c : Dev nD) :
    (V m c main_v6 : S8x2x8192.Idx → EReal)
      = transpose S8x2x8192 [0, 2, 1] (m ((c : Thread nD τ).loc main_arg0)) transposes_S8x8192x2_S8x2x8192_0_2_1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results

/-- The block index maps over the grid, decided once. -/
theorem idx_facts : ∀ t : Fin cfg0.N,
    (win0_0.index t 0 = 0 ∧ win0_0.index t 1 = t.val / 8 ∧ win0_0.index t 2 = 0)
    ∧ (win0_1.index t 0 = 0 ∧ win0_1.index t 1 = 0 ∧ win0_1.index t 2 = t.val % 8)
    ∧ (win0_2.index t 0 = 0 ∧ win0_2.index t 1 = 0 ∧ win0_2.index t 2 = 0)
    ∧ (win0_3.index t 0 = 0 ∧ win0_3.index t 1 = t.val / 8 ∧ win0_3.index t 2 = 0) :=
  (by decide +kernel : ∀ t : Fin grid0.N, _)

/-- A grid-point block's entry. -/
theorem iblk0_apply (c : Dev nD) (t : Fin cfg0.N) (b : Fin 8) (r : Fin 256) (k : Fin 2) (i : Fin 4096)
    (hi : i.val = t.val / 8 * 256 + r.val) :
    (iblk m c 0 t : Vec Ideal S8x256x2 .f32) (ix3 b r k) = m ((c : Thread nD τ).loc main_arg1) (ix3 b i k) := by
  rw [← V_main_arg1 m c]
  unfold iblk
  rw [View.read_apply]
  show V m c main_arg1 _ = V m c main_arg1 _
  refine congrArg _ ?_
  funext a; apply Fin.ext
  have h := (idx_facts t).1
  match a with
  | ⟨0, _⟩ => show win0_0.index t 0 * 8 + 1 * b.val = b.val; rw [h.1]; omega
  | ⟨1, _⟩ => show win0_0.index t 1 * 256 + 1 * r.val = i.val; rw [h.2.1, hi]; omega
  | ⟨2, _⟩ => show win0_0.index t 2 * 2 + 1 * k.val = k.val; rw [h.2.2]; omega

/-- A vertex block's entry: lane `cc` of tile `t mod 8`, read through the transposition. -/
theorem iblk1_apply (c : Dev nD) (t : Fin cfg0.N) (b : Fin 8) (k : Fin 2) (cc : Fin 1024) :
    (iblk m c 1 t : Vec Ideal S8x2x1024 .f32) (ix3 b k cc)
      = m ((c : Thread nD τ).loc main_arg0) (ix3 b (Cert.Hist.tile (t.val % 8) cc) k) := by
  have e : ((cfg0.win 1).blk t).view.emb (ix3 b k cc) = (ix3 b k (Cert.Hist.tile (t.val % 8) cc) : S8x2x8192.Idx) := by
    funext a; apply Fin.ext
    have h := (idx_facts t).2.1
    have hc := cc.isLt
    match a with
    | ⟨0, _⟩ => show win0_1.index t 0 * 8 + 1 * b.val = b.val; rw [h.1]; omega
    | ⟨1, _⟩ => show win0_1.index t 1 * 2 + 1 * k.val = k.val; rw [h.2.1]; omega
    | ⟨2, _⟩ => show win0_1.index t 2 * 1024 + 1 * cc.val = (1024 * (t.val % 8) + cc.val) % 8192; rw [h.2.2]; omega
  unfold iblk
  rw [View.read_apply]
  show V m c main_v6 _ = _
  rw [e, V_Tt]
  exact transpose_ix3_021_apply _ _ b k _

/-- The bandwidth block's entry. -/
theorem iblk2_apply (c : Dev nD) (t : Fin cfg0.N) (b : Fin 8) :
    (iblk m c 2 t : Vec Ideal S8x1x1 .f32) (ix3 b 0 0) = Cert.Hist.Sigma (m ((c : Thread nD τ).loc main_arg0)) (ix1 b) := by
  have e : ((cfg0.win 2).blk t).view.emb (ix3 b 0 0) = (ix3 b 0 0 : S8x1x1.Idx) := by
    funext a; apply Fin.ext
    have h := (idx_facts t).2.2.1
    match a with
    | ⟨0, _⟩ => show win0_2.index t 0 * 8 + 1 * b.val = b.val; rw [h.1]; omega
    | ⟨1, _⟩ => show win0_2.index t 1 * 1 + 1 * 0 = 0; rw [h.2.1]
    | ⟨2, _⟩ => show win0_2.index t 2 * 1 + 1 * 0 = 0; rw [h.2.2]
  unfold iblk
  rw [View.read_apply]
  show V m c main_v5 _ = _
  rw [e, V_sigma]
  exact shapeCast_apply _ _ _ _ (by
    rw [Shape.rowMajor_val_one, Shape.rowMajor_val_three]
    show b.val = (b.val * 1 + 0) * 1 + 0
    omega)

end Cert.KernelIdeal.KValue

end
-- ==== Proof.KInv.lean ====
/-
  The running sum across the grid, and what the output block holds when it is written back.

  Point `n = 8·i + j` handles row block `i` and vertex tile `j`. The scratch block after point `n` is the sum,
  in order from zero, of the partial sums of tiles `0 … j` of row block `i` (it is reset at `j = 0`); entry by
  entry that is `kAcc` of the batch's bandwidth, the grid point's coordinates and the batch's vertices. At
  `j = 7` the output block is `(c₂·ι)·(sum·2⁻¹³)` of it: the closed form `KForm`.
-/
import proofs.«149424_j56727928045825_2_alg».proof.Proof.KPieces
import proofs.«149424_j56727928045825_2_alg».proof.Proof.KPayload
import proofs.«149424_j56727928045825_2_alg».proof.Proof.KBlocks
import proofs.«149424_j56727928045825_2_alg».proof.Proof.Forms

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ)

/-- The bandwidth of batch `b`. -/
abbrev sg (c : Dev nD) (b : Fin 8) : EReal := Cert.Hist.Sigma (m ((c : Thread nD τ).loc main_arg0)) (ix1 b)
/-- The two coordinates of grid point `i` of batch `b`. -/
abbrev sv (c : Dev nD) (b : Fin 8) (i : Fin 4096) : Fin 2 → EReal := fun k => m ((c : Thread nD τ).loc main_arg1) (ix3 b i k)
/-- The vertices of batch `b`. -/
abbrev tv (c : Dev nD) (b : Fin 8) : Fin 8192 → Fin 2 → EReal := fun j k => m ((c : Thread nD τ).loc main_arg0) (ix3 b j k)

/-- The partial sums of the tile point `t` handles, as a block. -/
abbrev part (c : Dev nD) (t : Fin cfg0.N) : Vec Ideal S8x256x1 .f32 :=
  k0_pay5 (F := Ideal) (iblk m c 2 t) (iblk m c 0 t) (iblk m c 1 t)

/-- Entry (b, r) of that block. -/
theorem part_apply (c : Dev nD) (t : Fin cfg0.N) (b : Fin 8) (r : Fin 256) (i : Fin 4096) (hi : i.val = t.val / 8 * 256 + r.val) :
    part m c t (ix3 b r 0) = Cert.Hist.kPart (sg m c b) (sv m c b i) (tv m c b) (t.val % 8) := by
  show k0_pay5 (F := Ideal) (iblk m c 2 t) (iblk m c 0 t) (iblk m c 1 t) (ix3 b r 0) = _
  rw [pay5_apply, pay4_apply, iblk2_apply m c t b]
  unfold Cert.Hist.kPart
  refine Finset.sum_congr rfl fun cc _ => ?_
  simp only [iblk0_apply m c t b r _ i hi, iblk1_apply m c t b _ cc]
  rfl

/-- The scratch block after point `n`: reset at the first tile of a row block, otherwise what it held plus the tile's
    partial sums. -/
def chain (c : Dev nD) : (n : ℕ) → n < cfg0.N → Vec Ideal S8x256x1 .f32
  | 0, h => k0_pay1 (F := Ideal) (part m c ⟨0, h⟩) (k0_pay3 (F := Ideal))
  | n + 1, h =>
    if (n + 1) % 8 = 0 then k0_pay1 (F := Ideal) (part m c ⟨n + 1, h⟩) (k0_pay3 (F := Ideal))
    else k0_pay1 (F := Ideal) (part m c ⟨n + 1, h⟩) (chain c n (Nat.lt_of_succ_lt h))

/-- The three cases' values at a grid point's own staging buffers and input blocks. -/
theorem soutA_at (c : Dev nD) (t : Fin cfg0.N) (hc0 : cond0_0 (grid0.coords t)) (hc1 : ¬cond0_1 (grid0.coords t)) :
    sout0_A_0 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) = k0_pay1 (F := Ideal) (part m c t) (k0_pay3 (F := Ideal)) :=
  sout_A (F := Ideal) c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t)

theorem soutB_at (c : Dev nD) (t : Fin cfg0.N) (hc0 : ¬cond0_0 (grid0.coords t)) (hc1 : ¬cond0_1 (grid0.coords t))
    (xs0 : Vec Ideal S8x256x1 .f32) :
    sout0_B_0 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) xs0 = k0_pay1 (F := Ideal) (part m c t) xs0 :=
  sout_B (F := Ideal) c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) xs0

theorem soutC_at (c : Dev nD) (t : Fin cfg0.N) (hc0 : ¬cond0_0 (grid0.coords t)) (hc1 : cond0_1 (grid0.coords t))
    (xs0 : Vec Ideal S8x256x1 .f32) :
    sout0_C_0 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) xs0 = k0_pay1 (F := Ideal) (part m c t) xs0 :=
  sout_C (F := Ideal) c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) xs0

theorem outC_at (c : Dev nD) (t : Fin cfg0.N) (hc0 : ¬cond0_0 (grid0.coords t)) (hc1 : cond0_1 (grid0.coords t))
    (xs0 : Vec Ideal S8x256x1 .f32) :
    out0_C_3 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) xs0 = k0_pay2 (F := Ideal) (k0_pay4 (F := Ideal) (iblk m c 2 t)) (k0_pay1 (F := Ideal) (part m c t) xs0) :=
  out_C (F := Ideal) c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) xs0

/-- What the run leaves in the scratch block after each point is that chain: by induction on the point. -/
theorem scratch_eq (c : Dev nD) : ∀ (n : ℕ) (h : n < cfg0.N), (outsAt0 m c n h).2 = chain m c n h
  | 0, h => by
    rw [outsAt0_A m c ⟨0, h⟩ rfl (by show ¬ 0 % 8 = 7; decide)]
    dsimp only
    rw [soutA_at]
    rfl
  | n + 1, h => by
    have hN : cfg0.N = 128 := N_0
    have ih := scratch_eq c n (Nat.lt_of_succ_lt h)
    by_cases h0 : (n + 1) % 8 = 0
    · have h1 : ¬ (n + 1) % 8 = 7 := by omega
      rw [outsAt0_A m c ⟨n + 1, h⟩ h0 h1]
      dsimp only
      rw [soutA_at, chain, if_pos h0]
    · by_cases h1 : (n + 1) % 8 = 7
      · rw [outsAt0_C m c ⟨n + 1, h⟩ h0 h1]
        dsimp only
        rw [soutC_at, chain, if_neg h0]
        exact congrArg (k0_pay1 (F := Ideal) (part m c ⟨n + 1, h⟩)) ih
      · rw [outsAt0_B m c ⟨n + 1, h⟩ h0 h1]
        dsimp only
        rw [soutB_at, chain, if_neg h0]
        exact congrArg (k0_pay1 (F := Ideal) (part m c ⟨n + 1, h⟩)) ih

/-- Entry (b, r) of the chain after point `n`: the ordered sum of the tiles so far of grid point `256·(n/8) + r`. -/
theorem chain_apply (c : Dev nD) (b : Fin 8) (r : Fin 256) : ∀ (n : ℕ) (h : n < cfg0.N) (i : Fin 4096) (hi : i.val = n / 8 * 256 + r.val),
    chain m c n h (ix3 b r 0) = Cert.Hist.kAcc (sg m c b) (sv m c b i) (tv m c b) (n % 8)
  | 0, h, i, hi => by
    rw [chain, pay1_apply, pay3_apply, part_apply m c ⟨0, h⟩ b r i hi]
    rfl
  | n + 1, h, i, hi => by
    have hN : cfg0.N = 128 := N_0
    by_cases h0 : (n + 1) % 8 = 0
    · rw [chain, if_pos h0, pay1_apply, pay3_apply, part_apply m c ⟨n + 1, h⟩ b r i hi]
      show _ + Cert.Hist.kPart _ _ _ ((n + 1) % 8) = Cert.Hist.kAcc _ _ _ ((n + 1) % 8)
      rw [h0]
      rfl
    · have hq : (n + 1) / 8 = n / 8 := by omega
      have hr : (n + 1) % 8 = n % 8 + 1 := by omega
      rw [chain, if_neg h0, pay1_apply, part_apply m c ⟨n + 1, h⟩ b r i hi,
        chain_apply c b r n (Nat.lt_of_succ_lt h) i (by rw [hi, hq])]
      show _ + Cert.Hist.kPart _ _ _ ((n + 1) % 8) = Cert.Hist.kAcc _ _ _ ((n + 1) % 8)
      rw [hr]
      rfl

/-- The output block at a last-tile point: the scaled mean of the chain. -/
theorem out_eq (c : Dev nD) (t : Fin cfg0.N) (h1 : t.val % 8 = 7) :
    (outsAt0 m c t.val t.isLt).1 = k0_pay2 (F := Ideal) (k0_pay4 (F := Ideal) (iblk m c 2 t)) (chain m c t.val t.isLt) := by
  have hN : cfg0.N = 128 := N_0
  have h0 : ¬ t.val % 8 = 0 := by omega
  obtain ⟨n, hn⟩ := t
  cases n with
  | zero => exact absurd h1 (by show ¬ 0 % 8 = 7; decide)
  | succ n =>
    rw [outsAt0_C m c ⟨n + 1, hn⟩ h0 h1]
    dsimp only
    rw [outC_at, chain, if_neg h0]
    exact congrArg (fun x => k0_pay2 (F := Ideal) (k0_pay4 (F := Ideal) (iblk m c 2 ⟨n + 1, hn⟩)) (k0_pay1 (F := Ideal) (part m c ⟨n + 1, hn⟩) x))
      (scratch_eq m c n (Nat.lt_of_succ_lt hn))

/-- Entry (b, r) of the output block at a last-tile point: the kernel's closed form. -/
theorem out_apply (c : Dev nD) (t : Fin cfg0.N) (h1 : t.val % 8 = 7) (b : Fin 8) (r : Fin 256) (i : Fin 4096)
    (hi : i.val = t.val / 8 * 256 + r.val) :
    (outsAt0 m c t.val t.isLt).1 (ix3 b r 0) = Cert.Hist.KForm (sg m c b) (sv m c b i) (tv m c b) := by
  rw [out_eq m c t h1, pay2_apply, pay4_apply, iblk2_apply m c t b, chain_apply m c b r t.val t.isLt i hi, h1]
  rfl

end Cert.KernelIdeal.KValue

end
-- ==== Proof.KFinal.lean ====
/-
  The kernel's result array, the normalisation after the region, and the kernel program's run read as values.

  The output block of row block `i` is written back once, after the last vertex tile; the sixteen blocks tile the
  [8,4096,1] array, so after the region entry (b, i, 0) holds the closed form `KForm` of batch `b` and grid point `i`.
  The host lines after the region drop the unit axis and divide each row by its clipped sum: the shared `Tail`.
-/
import proofs.«149424_j56727928045825_2_alg».proof.Proof.KInv

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- The result array of the region: the closed form of each (batch, grid point). -/
def KArr (c : Dev nD) : S8x4096x1.Idx → EReal := fun i =>
  Cert.Hist.KForm (sg m c (i 0)) (sv m c (i 0) (i 1)) (tv m c (i 0))

/-- What a last-tile point writes back is its block of that array. -/
theorem flushed_eq (c : Dev nD) (t : Fin cfg0.N) (hf : (cfg0.win 3).flush t = true) :
    (dats m 0 c).flushed 3 t = ((cfg0.win 3).blk t).view.read (Elt Ideal) (KArr m c) := by
  have h7 := (flush0_3 t).mp hf
  have hN : t.val < 128 := lt_of_lt_of_eq t.isLt (show cfg0.N = 128 from N_0)
  show (cfg0.win 3).cut (grid0.coords t) ((dats m 0 c).after 3 t) = _
  rw [after0_3]
  funext y
  have hy0 : (y 0).val < 8 := (y 0).isLt
  have hy1 : (y 1).val < 256 := (y 1).isLt
  have hy2 : (y 2).val < 1 := (y 2).isLt
  obtain ⟨b, r, rfl⟩ : ∃ (b : Fin 8) (r : Fin 256), y = ix3 b r 0 :=
    ⟨⟨(y 0).val, hy0⟩, ⟨(y 1).val, hy1⟩, funext fun a => Fin.ext (by
      match a with
      | ⟨0, _⟩ => rfl
      | ⟨1, _⟩ => rfl
      | ⟨2, _⟩ => show (y 2).val = 0; omega)⟩
  have e : ((cfg0.win 3).blk t).view.emb (ix3 b r 0)
      = (ix3 b (⟨t.val / 8 * 256 + r.val, by have := r.isLt; omega⟩ : Fin 4096) 0 : S8x4096x1.Idx) := by
    funext a; apply Fin.ext
    have h := (idx_facts t).2.2.2
    match a with
    | ⟨0, _⟩ => show win0_3.index t 0 * 8 + 1 * b.val = b.val; rw [h.1]; omega
    | ⟨1, _⟩ => show win0_3.index t 1 * 256 + 1 * r.val = t.val / 8 * 256 + r.val; rw [h.2.1]; omega
    | ⟨2, _⟩ => show win0_3.index t 2 * 1 + 1 * 0 = 0; rw [h.2.2]
  rw [View.read_apply, e]
  exact out_apply m c t h7 b r _ rfl

/-- An index of the array lies in point `t`'s block iff each coordinate lies in the block's range. -/
theorem mem_blk (t : Fin cfg0.N) (i : S8x4096x1.Idx) :
    i ∈ ((cfg0.win 3).blk t).view.set ↔ ∀ a : Fin 3, win0_3.index t a * S8x256x1.size a ≤ (i a).val ∧ (i a).val < win0_3.index t a * S8x256x1.size a + S8x256x1.size a := by
  show i ∈ ((View.whole main_v7).slice (win0_3.rect t)).set ↔ _
  rw [View.set_slice_whole, Rect.mem_set_unit]
  exact Iff.rfl

/-- Every index of the array is covered by the last-tile point of its row block. -/
theorem cover (i : S8x4096x1.Idx) : ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 1 := (i 2).isLt
  have hN : cfg0.N = 128 := N_0
  have ht : (i 1).val / 256 * 8 + 7 < cfg0.N := by rw [hN]; omega
  refine ⟨⟨(i 1).val / 256 * 8 + 7, ht⟩, (flush0_3 _).mpr (by show ((i 1).val / 256 * 8 + 7) % 8 = 7; omega), ?_⟩
  rw [mem_blk]
  have h := (idx_facts ⟨(i 1).val / 256 * 8 + 7, ht⟩).2.2.2
  have hq : ((i 1).val / 256 * 8 + 7) / 8 = (i 1).val / 256 := by omega
  intro a
  match a with
  | ⟨0, _⟩ => show win0_3.index _ 0 * 8 ≤ (i 0).val ∧ (i 0).val < win0_3.index _ 0 * 8 + 8; rw [h.1]; omega
  | ⟨1, _⟩ =>
    show win0_3.index _ 1 * 256 ≤ (i 1).val ∧ (i 1).val < win0_3.index _ 1 * 256 + 256
    rw [h.2.1]; show _ / 8 * 256 ≤ _ ∧ _ < _ / 8 * 256 + 256; rw [hq]; omega
  | ⟨2, _⟩ => show win0_3.index _ 2 * 1 ≤ (i 2).val ∧ (i 2).val < win0_3.index _ 2 * 1 + 1; rw [h.2.2]; omega

/-- So the region's result array ends at the closed form everywhere. -/
theorem final (c : Dev nD) : (dats m 0 c).arrAt 3 cfg0.N = KArr m c :=
  (dats m 0 c).arrAt_eq_of_cover 3 (KArr m c) (flushed_eq m c) cover

attribute [local irreducible] Host.reduceAdd Host.divf broadcastInDim maximumf constant shapeCast in
set_option maxRecDepth 8192 in
set_option maxHeartbeats 1000000 in
/-- The program's result after the host lines that follow the region: the normalisation of the result array with
    its unit axis dropped. -/
theorem tail_eq (c : Dev nD) :
    Pipeline.afterTail₀ cfgs (dats m) 0 (V0 m) [hostOps1, hostOps1_1, hostOps1_2] c main_v13
      = Cert.Hist.Tail (shapeCast S8x4096 (KArr m c) shapeCasts_S8x4096x1_S8x4096) := by
  rw [← final m c, ← Pipeline.withArrays_arr spec0 launch0.win.arr_inj c (V0 m c) (fun w => (dats m 0 c).arrAt w cfg0.N) 3]
  unfold Pipeline.afterTail₀
  simp only [Gen.hostOps1, Gen.hostOps1_1, Gen.hostOps1_2, List.flatten_cons, List.flatten_nil, List.append_nil, List.cons_append,
    List.nil_append]
  after_results_simp
  rfl

/-- The idealized kernel program's run, read: its result at the normalised closed form, its arguments unchanged. -/
theorem run : θ_run defs (onTc (τ := τ) (main (F := Ideal))) ⟨m, fun _ => 0, ρ⟩ (fun r => ∀ c : Dev nD,
      r.2.mem ((c.tc : Thread nD τ).loc main_v13) = Cert.Hist.Tail (shapeCast S8x4096 (KArr m c) shapeCasts_S8x4096x1_S8x4096)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end Cert.KernelIdeal.KValue

end
-- ==== Proof.RefRun.lean ====
/-
  The reference program's run, read back.  Its @main calls the functions jax outlined for the standard
  deviation, the variance, the guarded quotient and the two clips; here each call is replaced by the
  callee's operations, listed in place over the buffers of that call, so that @main is one straight line
  of eighty host operations.  Every weakly fair execution of that line terminates with the result buffer
  at the composed pure term of the two arguments, which is the normalisation of the kernel estimate at the
  bandwidth computed from the vertices, and with the arguments unchanged.
-/
import proofs.«149424_j56727928045825_2_alg».proof.ReferenceIdeal
import proofs.«149424_j56727928045825_2_alg».proof.Proof.Gen.ReferenceIdeal
import proofs.«149424_j56727928045825_2_alg».proof.Proof.Terms
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F]

/-- @main's eighty operations in order, the calls unfolded: the integer one; the variance's twenty-two
    (the mean, the centred squares, their sum over the divisor, the guard and its select), the square root;
    @main's own seven up to the clip's three; the squared norms, the inner products, the exponent, the
    weights and their mean; the row sums, the second clip's three, and the quotient. -/
abbrev ops : List (HloOp τ sig (Elt F)) :=
  [ nullary main_c (constantI S_ 32 1#32),
    TRef.nullary main_call0_call0.cst (constant S_ .f32 0x00000000#32),
    TRef.binary (TRef.of main_arg0 : TRef sig ⟨S8x8192x2, .f32⟩) main_call0_call0.cst main_call0_call0.v0 (fun x v => Host.reduceAdd x v reducesTo_S8x8192x2_S8x2_d1 h_S_),
    TRef.unary main_call0_call0.v0 main_call0_call0.v1 (broadcastInDim S8x1x2 ![0, 2] bcast_S8x2_S8x1x2_0_2),
    TRef.nullary main_call0_call0.cst_0 (constant S_ .f32 0x46000000#32),
    TRef.unary main_call0_call0.cst_0 main_call0_call0.v2 (broadcastInDim S8x1x2 ![] bcast_S_S8x1x2),
    TRef.binary main_call0_call0.v1 main_call0_call0.v2 main_call0_call0.v3 Host.divf,
    TRef.unary main_call0_call0.v3 main_call0_call0.v4 (broadcastInDim S8x8192x2 ![0, 1, 2] bcast_S8x1x2_S8x8192x2_0_1_2),
    TRef.binary (TRef.of main_arg0 : TRef sig ⟨S8x8192x2, .f32⟩) main_call0_call0.v4 main_call0_call0.v5 subf,
    TRef.binary main_call0_call0.v5 main_call0_call0.v5 main_call0_call0.v6 mulf,
    TRef.unary (TRef.of main_c : TRef sig ⟨S_, .i32⟩) main_call0_call0.v7 (sitofp .f32),
    TRef.nullary main_call0_call0.cst_1 (constant S_ .f32 0x46000000#32),
    TRef.binary main_call0_call0.cst_1 main_call0_call0.v7 main_call0_call0.v8 subf,
    TRef.nullary main_call0_call0.cst_2 (constant S_ .f32 0x00000000#32),
    TRef.binary main_call0_call0.v6 main_call0_call0.cst_2 main_call0_call0.v9 (fun x v => Host.reduceAdd x v reducesTo_S8x8192x2_S8x2_d1 h_S_),
    TRef.unary main_call0_call0.v8 main_call0_call0.v10 (broadcastInDim S8x2 ![] bcast_S_S8x2),
    TRef.binary main_call0_call0.v9 main_call0_call0.v10 main_call0_call0.v11 Host.divf,
    TRef.nullary main_call0_call0.cst_3 (constant S_ .f32 0x00000000#32),
    TRef.binary main_call0_call0.v8 main_call0_call0.cst_3 main_call0_call0.v12 (cmpf .ogt),
    TRef.nullary main_call0_call0.cst_4 (constant S_ .f32 0x7FC00000#32),
    TRef.unary main_call0_call0.cst_4 main_call0_call0_call0.v0 id,
    TRef.unary main_call0_call0_call0.v0 main_call0_call0_call0.v1 (broadcastInDim S8x2 ![] bcast_S_S8x2),
    TRef.ternary main_call0_call0.v12 main_call0_call0.v11 main_call0_call0_call0.v1 main_call0_call0_call0.v2 (fun p a b => select (broadcastInDim S8x2 ![] bcast_S_S8x2 p) a b),
    TRef.unary main_call0_call0_call0.v2 main_call0.v1 Host.sqrt,
    nullary main_cst (constant S_ .f32 0x00000000#32),
    binary main_v0 main_cst main_v1 ((fun x v => Host.reduceAdd x v reducesTo_S8x2_S8_d1 h_S_) : (⟨S8x2, .f32⟩ : BufTy).Contents (Elt F) → (⟨S_, .f32⟩ : BufTy).Contents (Elt F) → (⟨S8, .f32⟩ : BufTy).Contents (Elt F)),
    nullary main_cst_0 (constant S_ .f32 0x40000000#32),
    unary main_cst_0 main_v2 (broadcastInDim S8 ![] bcast_S_S8 : (⟨S_, .f32⟩ : BufTy).Contents (Elt F) → (⟨S8, .f32⟩ : BufTy).Contents (Elt F)),
    binary main_v1 main_v2 main_v3 (Host.divf : (⟨S8, .f32⟩ : BufTy).Contents (Elt F) → (⟨S8, .f32⟩ : BufTy).Contents (Elt F) → (⟨S8, .f32⟩ : BufTy).Contents (Elt F)),
    nullary main_cst_1 (constant S_ .f32 0x3C820821#32),
    TRef.unary (TRef.of main_cst_1 : TRef sig ⟨S_, .f32⟩) main_call1.v0 id,
    TRef.unary main_call1.v0 main_call1.v1 (broadcastInDim S8 ![] bcast_S_S8),
    TRef.binary main_call1.v1 (TRef.of main_v3 : TRef sig ⟨S8, .f32⟩) main_call1.v2 maximumf,
    binary main_arg1 main_arg1 main_v5 (mulf : (⟨S8x4096x2, .f32⟩ : BufTy).Contents (Elt F) → (⟨S8x4096x2, .f32⟩ : BufTy).Contents (Elt F) → (⟨S8x4096x2, .f32⟩ : BufTy).Contents (Elt F)),
    nullary main_cst_2 (constant S_ .f32 0x00000000#32),
    binary main_v5 main_cst_2 main_v6 ((fun x v => Host.reduceAdd x v reducesTo_S8x4096x2_S8x4096_d2 h_S_) : (⟨S8x4096x2, .f32⟩ : BufTy).Contents (Elt F) → (⟨S_, .f32⟩ : BufTy).Contents (Elt F) → (⟨S8x4096, .f32⟩ : BufTy).Contents (Elt F)),
    unary main_v6 main_v7 (broadcastInDim S8x4096x1 ![0, 1] bcast_S8x4096_S8x4096x1_0_1 : (⟨S8x4096, .f32⟩ : BufTy).Contents (Elt F) → (⟨S8x4096x1, .f32⟩ : BufTy).Contents (Elt F)),
    binary main_arg0 main_arg0 main_v8 (mulf : (⟨S8x8192x2, .f32⟩ : BufTy).Contents (Elt F) → (⟨S8x8192x2, .f32⟩ : BufTy).Contents (Elt F) → (⟨S8x8192x2, .f32⟩ : BufTy).Contents (Elt F)),
    nullary main_cst_3 (constant S_ .f32 0x00000000#32),
    binary main_v8 main_cst_3 main_v9 ((fun x v => Host.reduceAdd x v reducesTo_S8x8192x2_S8x8192_d2 h_S_) : (⟨S8x8192x2, .f32⟩ : BufTy).Contents (Elt F) → (⟨S_, .f32⟩ : BufTy).Contents (Elt F) → (⟨S8x8192, .f32⟩ : BufTy).Contents (Elt F)),
    unary main_v9 main_v10 (broadcastInDim S8x1x8192 ![0, 2] bcast_S8x8192_S8x1x8192_0_2 : (⟨S8x8192, .f32⟩ : BufTy).Contents (Elt F) → (⟨S8x1x8192, .f32⟩ : BufTy).Contents (Elt F)),
    binary main_arg1 main_arg0 main_v11 ((fun l r => Host.dotGeneral dot_S8x4096x2_S8x8192x2_S8x4096x8192_2_2_1_1_0_0 none l r) : (⟨S8x4096x2, .f32⟩ : BufTy).Contents (Elt F) → (⟨S8x8192x2, .f32⟩ : BufTy).Contents (Elt F) → (⟨S8x4096x8192, .f32⟩ : BufTy).Contents (Elt F)),
    unary main_v7 main_v12 (broadcastInDim S8x4096x8192 ![0, 1, 2] bcast_S8x4096x1_S8x4096x8192_0_1_2 : (⟨S8x4096x1, .f32⟩ : BufTy).Contents (Elt F) → (⟨S8x4096x8192, .f32⟩ : BufTy).Contents (Elt F)),
    unary main_v10 main_v13 (broadcastInDim S8x4096x8192 ![0, 1, 2] bcast_S8x1x8192_S8x4096x8192_0_1_2 : (⟨S8x1x8192, .f32⟩ : BufTy).Contents (Elt F) → (⟨S8x4096x8192, .f32⟩ : BufTy).Contents (Elt F)),
    binary main_v12 main_v13 main_v14 (addf : (⟨S8x4096x8192, .f32⟩ : BufTy).Contents (Elt F) → (⟨S8x4096x8192, .f32⟩ : BufTy).Contents (Elt F) → (⟨S8x4096x8192, .f32⟩ : BufTy).Contents (Elt F)),
    nullary main_cst_4 (constant S_ .f32 0x40000000#32),
    unary main_cst_4 main_v15 (broadcastInDim S8x4096x8192 ![] bcast_S_S8x4096x8192 : (⟨S_, .f32⟩ : BufTy).Contents (Elt F) → (⟨S8x4096x8192, .f32⟩ : BufTy).Contents (Elt F)),
    binary main_v15 main_v11 main_v16 (mulf : (⟨S8x4096x8192, .f32⟩ : BufTy).Contents (Elt F) → (⟨S8x4096x8192, .f32⟩ : BufTy).Contents (Elt F) → (⟨S8x4096x8192, .f32⟩ : BufTy).Contents (Elt F)),
    binary main_v14 main_v16 main_v17 (subf : (⟨S8x4096x8192, .f32⟩ : BufTy).Contents (Elt F) → (⟨S8x4096x8192, .f32⟩ : BufTy).Contents (Elt F) → (⟨S8x4096x8192, .f32⟩ : BufTy).Contents (Elt F)),
    nullary main_cst_5 (constant S_ .f32 0xC1214518#32),
    unary main_cst_5 main_v18 (broadcastInDim S8x4096x8192 ![] bcast_S_S8x4096x8192 : (⟨S_, .f32⟩ : BufTy).Contents (Elt F) → (⟨S8x4096x8192, .f32⟩ : BufTy).Contents (Elt F)),
    binary main_v18 main_v17 main_v19 (mulf : (⟨S8x4096x8192, .f32⟩ : BufTy).Contents (Elt F) → (⟨S8x4096x8192, .f32⟩ : BufTy).Contents (Elt F) → (⟨S8x4096x8192, .f32⟩ : BufTy).Contents (Elt F)),
    unary main_v4 main_v20 (broadcastInDim S8x1x1 ![0] bcast_S8_S8x1x1_0 : (⟨S8, .f32⟩ : BufTy).Contents (Elt F) → (⟨S8x1x1, .f32⟩ : BufTy).Contents (Elt F)),
    binary main_v20 main_v20 main_v21 (mulf : (⟨S8x1x1, .f32⟩ : BufTy).Contents (Elt F) → (⟨S8x1x1, .f32⟩ : BufTy).Contents (Elt F) → (⟨S8x1x1, .f32⟩ : BufTy).Contents (Elt F)),
    unary main_v21 main_v22 (broadcastInDim S8x4096x8192 ![0, 1, 2] bcast_S8x1x1_S8x4096x8192_0_1_2 : (⟨S8x1x1, .f32⟩ : BufTy).Contents (Elt F) → (⟨S8x4096x8192, .f32⟩ : BufTy).Contents (Elt F)),
    binary main_v19 main_v22 main_v23 (Host.divf : (⟨S8x4096x8192, .f32⟩ : BufTy).Contents (Elt F) → (⟨S8x4096x8192, .f32⟩ : BufTy).Contents (Elt F) → (⟨S8x4096x8192, .f32⟩ : BufTy).Contents (Elt F)),
    unary main_v23 main_v24 (Host.exp : (⟨S8x4096x8192, .f32⟩ : BufTy).Contents (Elt F) → (⟨S8x4096x8192, .f32⟩ : BufTy).Contents (Elt F)),
    unary main_v4 main_v25 (broadcastInDim S8x1 ![0] bcast_S8_S8x1_0 : (⟨S8, .f32⟩ : BufTy).Contents (Elt F) → (⟨S8x1, .f32⟩ : BufTy).Contents (Elt F)),
    nullary main_cst_6 (constant S_ .f32 0xC0000000#32),
    unary main_cst_6 main_v26 (broadcastInDim S8x1 ![] bcast_S_S8x1 : (⟨S_, .f32⟩ : BufTy).Contents (Elt F) → (⟨S8x1, .f32⟩ : BufTy).Contents (Elt F)),
    binary main_v25 main_v26 main_v27 (Host.powf : (⟨S8x1, .f32⟩ : BufTy).Contents (Elt F) → (⟨S8x1, .f32⟩ : BufTy).Contents (Elt F) → (⟨S8x1, .f32⟩ : BufTy).Contents (Elt F)),
    nullary main_cst_7 (constant S_ .f32 0x404D55D0#32),
    unary main_cst_7 main_v28 (broadcastInDim S8x1 ![] bcast_S_S8x1 : (⟨S_, .f32⟩ : BufTy).Contents (Elt F) → (⟨S8x1, .f32⟩ : BufTy).Contents (Elt F)),
    binary main_v28 main_v27 main_v29 (mulf : (⟨S8x1, .f32⟩ : BufTy).Contents (Elt F) → (⟨S8x1, .f32⟩ : BufTy).Contents (Elt F) → (⟨S8x1, .f32⟩ : BufTy).Contents (Elt F)),
    nullary main_cst_8 (constant S_ .f32 0x00000000#32),
    binary main_v24 main_cst_8 main_v30 ((fun x v => Host.reduceAdd x v reducesTo_S8x4096x8192_S8x4096_d2 h_S_) : (⟨S8x4096x8192, .f32⟩ : BufTy).Contents (Elt F) → (⟨S_, .f32⟩ : BufTy).Contents (Elt F) → (⟨S8x4096, .f32⟩ : BufTy).Contents (Elt F)),
    nullary main_cst_9 (constant S_ .f32 0x46000000#32),
    unary main_cst_9 main_v31 (broadcastInDim S8x4096 ![] bcast_S_S8x4096 : (⟨S_, .f32⟩ : BufTy).Contents (Elt F) → (⟨S8x4096, .f32⟩ : BufTy).Contents (Elt F)),
    binary main_v30 main_v31 main_v32 (Host.divf : (⟨S8x4096, .f32⟩ : BufTy).Contents (Elt F) → (⟨S8x4096, .f32⟩ : BufTy).Contents (Elt F) → (⟨S8x4096, .f32⟩ : BufTy).Contents (Elt F)),
    unary main_v29 main_v33 (broadcastInDim S8x4096 ![0, 1] bcast_S8x1_S8x4096_0_1 : (⟨S8x1, .f32⟩ : BufTy).Contents (Elt F) → (⟨S8x4096, .f32⟩ : BufTy).Contents (Elt F)),
    binary main_v33 main_v32 main_v34 (mulf : (⟨S8x4096, .f32⟩ : BufTy).Contents (Elt F) → (⟨S8x4096, .f32⟩ : BufTy).Contents (Elt F) → (⟨S8x4096, .f32⟩ : BufTy).Contents (Elt F)),
    nullary main_cst_10 (constant S_ .f32 0x00000000#32),
    binary main_v34 main_cst_10 main_v35 ((fun x v => Host.reduceAdd x v reducesTo_S8x4096_S8_d1 h_S_) : (⟨S8x4096, .f32⟩ : BufTy).Contents (Elt F) → (⟨S_, .f32⟩ : BufTy).Contents (Elt F) → (⟨S8, .f32⟩ : BufTy).Contents (Elt F)),
    unary main_v35 main_v36 (broadcastInDim S8x1 ![0] bcast_S8_S8x1_0 : (⟨S8, .f32⟩ : BufTy).Contents (Elt F) → (⟨S8x1, .f32⟩ : BufTy).Contents (Elt F)),
    nullary main_cst_11 (constant S_ .f32 0x3727C5AC#32),
    TRef.unary (TRef.of main_cst_11 : TRef sig ⟨S_, .f32⟩) main_call2.v0 id,
    TRef.unary main_call2.v0 main_call2.v1 (broadcastInDim S8x1 ![] bcast_S_S8x1),
    TRef.binary main_call2.v1 (TRef.of main_v36 : TRef sig ⟨S8x1, .f32⟩) main_call2.v2 maximumf,
    unary main_v37 main_v38 (broadcastInDim S8x4096 ![0, 1] bcast_S8x1_S8x4096_0_1 : (⟨S8x1, .f32⟩ : BufTy).Contents (Elt F) → (⟨S8x4096, .f32⟩ : BufTy).Contents (Elt F)),
    binary main_v34 main_v38 main_v39 (Host.divf : (⟨S8x4096, .f32⟩ : BufTy).Contents (Elt F) → (⟨S8x4096, .f32⟩ : BufTy).Contents (Elt F) → (⟨S8x4096, .f32⟩ : BufTy).Contents (Elt F)) ]

-- eighty binds re-associated: the rewrite under the chain recurses once per statement
set_option maxRecDepth 8192 in
set_option maxHeartbeats 4000000 in
/-- @main is that straight line: the functions' definitions unfolded at their calls and the records at
    their fields, both sides are one chain of steps once sequencing is reassociated. -/
theorem main_eq (c : Dev nD) : main (F := F) c = seq ops := by
  simp only [main, fn_std.body, fn_var.body, fn_where.body, fn_clip.body, fn_clip_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., nullary_bufs_sub .., binary_bufs_sub .., nullary_bufs_sub .., unary_bufs_sub .., binary_bufs_sub .., nullary_bufs_sub .., unary_bufs_sub .., unary_bufs_sub .., binary_bufs_sub .., binary_bufs_sub .., nullary_bufs_sub .., binary_bufs_sub .., unary_bufs_sub .., binary_bufs_sub .., nullary_bufs_sub .., binary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., binary_bufs_sub .., nullary_bufs_sub .., binary_bufs_sub .., unary_bufs_sub .., nullary_bufs_sub .., unary_bufs_sub .., unary_bufs_sub .., binary_bufs_sub .., unary_bufs_sub .., binary_bufs_sub ..⟩

/-- The fold of the eighty operations at the result buffer is the normalised estimate at the computed bandwidth:
    each operation's result is its function of its operands' contents, and the three shared terms are the same
    operations in the same order. -/
theorem out_eq (V : Valuation τ sig (Elt Ideal)) :
    after (ops (F := Ideal)) V (main_v39 : DevRef τ sig)
      = Cert.Hist.Tail (Cert.Hist.RefKH (Cert.Hist.Sigma (V (main_arg0 : DevRef τ sig))) (V (main_arg0 : DevRef τ sig))
          (V (main_arg1 : DevRef τ sig))) := by
  after_results_simp
  rfl

theorem arg0_eq (V : Valuation τ sig (Elt Ideal)) :
    after (ops (F := Ideal)) V (main_arg0 : DevRef τ sig) = V (main_arg0 : DevRef τ sig) := by
  after_results_simp

theorem arg1_eq (V : Valuation τ sig (Elt Ideal)) :
    after (ops (F := Ideal)) V (main_arg1 : DevRef τ sig) = V (main_arg1 : DevRef τ sig) := by
  after_results_simp

/-- On every device, from any memory with zero counters: every weakly fair execution of @main terminates with the
    result buffer at the normalised kernel estimate of the two arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v39)
          = Cert.Hist.Tail (Cert.Hist.RefKH (Cert.Hist.Sigma (m ((c.tc : Thread nD τ).loc main_arg0)))
              (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v39).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefValue

end
-- ==== Proof.RefRead.lean ====
/-
  The reference's kernel estimate read at one index.  Every host operation in it is pointwise, a broadcast, a sum
  along the last axis, or the batched inner product of the two coordinate pairs; reading the array at (b, i)
  therefore unfolds, operation by operation, into one closed formula on the extended reals: the constant times
  the bandwidth to the power −2, times the mean over the 8192 vertices j of the exponential of the constant times
  (|S[b,i]|² + |T[b,j]|² − 2 ⟨S[b,i], T[b,j]⟩) over the squared bandwidth.
-/
import proofs.«149424_j56727928045825_2_alg».proof.Proof.Terms
import Idealize.ShloMosaic.Lib.ValueIdx
import Idealize.ShloMosaic.Lib.Pipeline.Value
import Idealize.ShloMosaic.Lib.IdealHost
import Idealize.ShloMosaic.PureOps.Ideal.Laws

noncomputable section

namespace Cert.Hist

open Idealize.ShloMosaic Idealize.ShloMosaic.ValueIdx Cert.ReferenceIdeal Cert.ReferenceIdeal.Facts₀

/-! ## The broadcasts of this program, read at an index -/

section Broadcasts
variable {α : Type}

/-- A column [8,1] copied along 4096 columns reads the column's entry of the same row. -/
theorem bcast_8x1_8x4096 (h : S8x1.BroadcastsInDim S8x4096 ![0, 1]) (x : S8x1.Idx → α) (b : Fin 8) (i : Fin 4096) :
    broadcastInDim S8x4096 ![0, 1] h x (ix2 b i) = x (ix2 b 0) :=
  broadcastInDim_apply _ h x _ _ (fun a => match a with | ⟨0, _⟩ => rfl | ⟨1, _⟩ => rfl)

/-- A vector [8] as a column [8,1]. -/
theorem bcast_8_8x1 (h : S8.BroadcastsInDim S8x1 ![0]) (x : S8.Idx → α) (b : Fin 8) (z : Fin 1) :
    broadcastInDim S8x1 ![0] h x (ix2 b z) = x (ix1 b) :=
  broadcastInDim_apply _ h x _ _ (fun a => match a with | ⟨0, _⟩ => rfl)

/-- A vector [8] as an [8,1,1] array. -/
theorem bcast_8_8x1x1 (h : S8.BroadcastsInDim S8x1x1 ![0]) (x : S8.Idx → α) (b : Fin 8) (z z' : Fin 1) :
    broadcastInDim S8x1x1 ![0] h x (ix3 b z z') = x (ix1 b) :=
  broadcastInDim_apply _ h x _ _ (fun a => match a with | ⟨0, _⟩ => rfl)

/-- An [8,1,1] array copied over the two trailing axes. -/
theorem bcast_8x1x1_full (h : S8x1x1.BroadcastsInDim S8x4096x8192 ![0, 1, 2]) (x : S8x1x1.Idx → α)
    (b : Fin 8) (i : Fin 4096) (j : Fin 8192) :
    broadcastInDim S8x4096x8192 ![0, 1, 2] h x (ix3 b i j) = x (ix3 b 0 0) :=
  broadcastInDim_apply _ h x _ _ (fun a => match a with | ⟨0, _⟩ => rfl | ⟨1, _⟩ => rfl | ⟨2, _⟩ => rfl)

/-- An [8,4096] array with a unit axis appended. -/
theorem bcast_8x4096_8x4096x1 (h : S8x4096.BroadcastsInDim S8x4096x1 ![0, 1]) (x : S8x4096.Idx → α)
    (b : Fin 8) (i : Fin 4096) (z : Fin 1) :
    broadcastInDim S8x4096x1 ![0, 1] h x (ix3 b i z) = x (ix2 b i) :=
  broadcastInDim_apply _ h x _ _ (fun a => match a with | ⟨0, _⟩ => rfl | ⟨1, _⟩ => rfl)

/-- An [8,4096,1] array copied along the last axis. -/
theorem bcast_8x4096x1_full (h : S8x4096x1.BroadcastsInDim S8x4096x8192 ![0, 1, 2]) (x : S8x4096x1.Idx → α)
    (b : Fin 8) (i : Fin 4096) (j : Fin 8192) :
    broadcastInDim S8x4096x8192 ![0, 1, 2] h x (ix3 b i j) = x (ix3 b i 0) :=
  broadcastInDim_apply _ h x _ _ (fun a => match a with | ⟨0, _⟩ => rfl | ⟨1, _⟩ => rfl | ⟨2, _⟩ => rfl)

/-- An [8,8192] array with a unit axis inserted in the middle. -/
theorem bcast_8x8192_8x1x8192 (h : S8x8192.BroadcastsInDim S8x1x8192 ![0, 2]) (x : S8x8192.Idx → α)
    (b : Fin 8) (z : Fin 1) (j : Fin 8192) :
    broadcastInDim S8x1x8192 ![0, 2] h x (ix3 b z j) = x (ix2 b j) :=
  broadcastInDim_apply _ h x _ _ (fun a => match a with | ⟨0, _⟩ => rfl | ⟨1, _⟩ => rfl)

/-- An [8,1,8192] array copied along the middle axis. -/
theorem bcast_8x1x8192_full (h : S8x1x8192.BroadcastsInDim S8x4096x8192 ![0, 1, 2]) (x : S8x1x8192.Idx → α)
    (b : Fin 8) (i : Fin 4096) (j : Fin 8192) :
    broadcastInDim S8x4096x8192 ![0, 1, 2] h x (ix3 b i j) = x (ix3 b 0 j) :=
  broadcastInDim_apply _ h x _ _ (fun a => match a with | ⟨0, _⟩ => rfl | ⟨1, _⟩ => rfl | ⟨2, _⟩ => rfl)

end Broadcasts

/-! ## The sums and the inner product, read at an index -/

/-- A host sum along the last axis of a rank-3 array, read at (b, i): the initial value plus the sum of that row. -/
theorem hostSum_last {n0 n1 n2 : Nat} (h' : (⟨3, ![n0, n1, n2]⟩ : Shape).ReducesTo [2] ⟨2, ![n0, n1]⟩)
    (h : (⟨3, ![n0, n1, n2]⟩ : Shape).Reduces [2] ⟨2, ![n0, n1]⟩)
    (x : FVec Ideal ⟨3, ![n0, n1, n2]⟩ .f32) (init : FVec Ideal S_ .f32) (hu : 0 < S_.numel) (b : Fin n0) (i : Fin n1) :
    Host.reduceAdd (F := Ideal) x init h' hu (ix2 b i) = init ix0 + ∑ k : Fin n2, x (ix3 b i k) := by
  rw [hostReduceAdd_apply, Ideal.hostReduceAdd_single h' h]
  show init _ + ∑ k : Fin n2, x (h.lift (ix2 b i) k) = _
  congr 1
  · exact congrArg init (eq_ix0 _)
  · refine Finset.sum_congr rfl fun k _ => congrArg x ?_
    funext c; apply Fin.ext
    match c with
    | ⟨0, _⟩ => rfl
    | ⟨1, _⟩ => rfl
    | ⟨2, _⟩ => rfl

/-- The batched inner product of the two coordinate pairs, read at (b, i, j). -/
theorem dot_apply (S : FVec Ideal S8x4096x2 .f32) (T : FVec Ideal S8x8192x2 .f32) (b : Fin 8) (i : Fin 4096) (j : Fin 8192) :
    Host.dotGeneral (F := Ideal) dot_S8x4096x2_S8x8192x2_S8x4096x8192_2_2_1_1_0_0 none S T (ix3 b i j) = ∑ k : Fin 2, S (ix3 b i k) * T (ix3 b j k) := by
  show FloatOps.dotGeneral dot_S8x4096x2_S8x8192x2_S8x4096x8192_2_2_1_1_0_0 none _ S T (ix3 b i j) = _
  rw [Ideal.dotGeneral_apply, ← Equiv.sum_comp (contrEquiv1 dot_S8x4096x2_S8x8192x2_S8x4096x8192_2_2_1_1_0_0 2 rfl rfl).symm]
  refine Finset.sum_congr rfl fun c _ => ?_
  have c3 := contrEquiv1_symm_val dot_S8x4096x2_S8x8192x2_S8x4096x8192_2_2_1_1_0_0 2 rfl rfl c
  have l3 : (dot_S8x4096x2_S8x8192x2_S8x4096x8192_2_2_1_1_0_0).lhsIdx (ix3 b i j) ((contrEquiv1 dot_S8x4096x2_S8x8192x2_S8x4096x8192_2_2_1_1_0_0 2 rfl rfl).symm c) = ix3 b i c := by
    funext ax; apply Fin.ext
    match ax with
    | ⟨0, _⟩ => simp [DotDims.lhsIdx, dot_S8x4096x2_S8x8192x2_S8x4096x8192_2_2_1_1_0_0]; rfl
    | ⟨1, _⟩ => simp [DotDims.lhsIdx, dot_S8x4096x2_S8x8192x2_S8x4096x8192_2_2_1_1_0_0]; rfl
    | ⟨2, _⟩ => simp [DotDims.lhsIdx, dot_S8x4096x2_S8x8192x2_S8x4096x8192_2_2_1_1_0_0]; exact c3
  have r3 : (dot_S8x4096x2_S8x8192x2_S8x4096x8192_2_2_1_1_0_0).rhsIdx (ix3 b i j) ((contrEquiv1 dot_S8x4096x2_S8x8192x2_S8x4096x8192_2_2_1_1_0_0 2 rfl rfl).symm c) = ix3 b j c := by
    funext ax; apply Fin.ext
    match ax with
    | ⟨0, _⟩ => simp [DotDims.rhsIdx, dot_S8x4096x2_S8x8192x2_S8x4096x8192_2_2_1_1_0_0]; rfl
    | ⟨1, _⟩ => simp [DotDims.rhsIdx, dot_S8x4096x2_S8x8192x2_S8x4096x8192_2_2_1_1_0_0]; rfl
    | ⟨2, _⟩ => simp [DotDims.rhsIdx, dot_S8x4096x2_S8x8192x2_S8x4096x8192_2_2_1_1_0_0]; exact c3
  rw [l3, r3]

/-! ## The estimate at an index -/

/-- The host's exponential and power at an index are the extended-real ones of the entries. -/
theorem hostExp_apply {s : Shape} {φ : FTy} (x : FVec Ideal s φ) (i : s.Idx) : Host.exp x i = Ideal.exp (x i) := rfl
theorem hostPowf_apply {s : Shape} {φ : FTy} (x y : FVec Ideal s φ) (i : s.Idx) :
    Host.powf x y i = Ideal.pow (x i) (y i) := rfl

/-- The reference's kernel estimate at (b, i) as one closed formula on the extended reals. -/
theorem refKH_apply (sg : FVec Ideal S8 .f32) (T : FVec Ideal S8x8192x2 .f32) (S : FVec Ideal S8x4096x2 .f32)
    (b : Fin 8) (i : Fin 4096) :
    RefKH sg T S (ix2 b i) =
      (Ideal.ofBits .f32 0x404D55D0#32 * Ideal.pow (sg (ix1 b)) (Ideal.ofBits .f32 0xC0000000#32)) *
        Ideal.div
          (Ideal.ofBits .f32 0x00000000#32 + ∑ j : Fin 8192,
            Ideal.exp (Ideal.div
              (Ideal.ofBits .f32 0xC1214518#32 *
                (((Ideal.ofBits .f32 0x00000000#32 + ∑ k : Fin 2, S (ix3 b i k) * S (ix3 b i k))
                    + (Ideal.ofBits .f32 0x00000000#32 + ∑ k : Fin 2, T (ix3 b j k) * T (ix3 b j k)))
                  - Ideal.ofBits .f32 0x40000000#32 * (∑ k : Fin 2, S (ix3 b i k) * T (ix3 b j k))))
              (sg (ix1 b) * sg (ix1 b))))
          (Ideal.ofBits .f32 0x46000000#32) := by
  simp only [RefKH, Weights, SqDist, zero0, mulf_apply, addf_apply, subf_apply, hostDivf_apply, hostExp_apply,
    hostPowf_apply, bcast_8x1_8x4096 bcast_S8x1_S8x4096_0_1, bcast_8_8x1 bcast_S8_S8x1_0, bcast_8_8x1x1 bcast_S8_S8x1x1_0,
    bcast_8x1x1_full bcast_S8x1x1_S8x4096x8192_0_1_2, bcast_8x4096_8x4096x1 bcast_S8x4096_S8x4096x1_0_1,
    bcast_8x4096x1_full bcast_S8x4096x1_S8x4096x8192_0_1_2, bcast_8x8192_8x1x8192 bcast_S8x8192_S8x1x8192_0_2,
    bcast_8x1x8192_full bcast_S8x1x8192_S8x4096x8192_0_1_2, broadcastInDim_scalar_apply bcast_S_S8x1,
    broadcastInDim_scalar_apply bcast_S_S8x4096, broadcastInDim_scalar_apply bcast_S_S8x4096x8192, constant_apply,
    hostSum_last reducesTo_S8x4096x8192_S8x4096_d2 (by decide), hostSum_last reducesTo_S8x4096x2_S8x4096_d2 (by decide),
    hostSum_last reducesTo_S8x8192x2_S8x8192_d2 (by decide), dot_apply]

end Cert.Hist

end
-- ==== Proof.Consts.lean ====
/- The float literals of this certificate, as the extended reals their IEEE patterns denote at the ideal
   instance (`Ideal.ofBits`). One module unfolds `Ideal.ofBits` / `Ideal.ieee` for all of them, so the other
   modules read the constants here and unfold neither. -/
import Idealize.ShloMosaic.PureOps.Ideal

noncomputable section

namespace Cert.Hist

open Idealize.ShloMosaic

/-- `+0.0` denotes `0`. -/
theorem ofBits_zero : Ideal.ofBits .f32 0x00000000#32 = 0 := by
  simp [Ideal.ofBits, Ideal.ieee]

/-- `1.0` denotes the real `1`. -/
theorem ofBits_one : Ideal.ofBits .f32 0x3F800000#32 = ((1 : ℝ) : EReal) := by
  simp [Ideal.ofBits, Ideal.ieee, -EReal.coe_mul]; norm_num

/-- `2.0` denotes the real `2`. -/
theorem ofBits_two : Ideal.ofBits .f32 0x40000000#32 = ((2 : ℝ) : EReal) := by
  simp [Ideal.ofBits, Ideal.ieee, -EReal.coe_mul]; norm_num

/-- `-2.0` denotes the real `-2`. -/
theorem ofBits_neg_two : Ideal.ofBits .f32 0xC0000000#32 = ((-2 : ℝ) : EReal) := by
  simp [Ideal.ofBits, Ideal.ieee, -EReal.coe_mul]; norm_num

/-- `8192.0` denotes the real `8192`. -/
theorem ofBits_8192 : Ideal.ofBits .f32 0x46000000#32 = ((8192 : ℝ) : EReal) := by
  simp [Ideal.ofBits, Ideal.ieee, -EReal.coe_mul]; norm_num

/-- `2^-13` denotes the real `1/8192`. -/
theorem ofBits_inv_8192 : Ideal.ofBits .f32 0x39000000#32 = ((1 / 8192 : ℝ) : EReal) := by
  simp [Ideal.ofBits, Ideal.ieee, -EReal.coe_mul]; norm_num

/-- The exponent's coefficient (a negative normal number): its exact dyadic value. -/
theorem ofBits_CN_eq : Ideal.ofBits .f32 0xC1214518#32 = ((-(10568984 / 1048576) : ℝ) : EReal) := by
  simp [Ideal.ofBits, Ideal.ieee, -EReal.coe_mul]; norm_num

/-- The exponent's coefficient denotes a real. -/
theorem ofBits_CN : ∃ r : ℝ, Ideal.ofBits .f32 0xC1214518#32 = (r : EReal) := ⟨_, ofBits_CN_eq⟩

/-- The outer factor (a positive normal number): its exact dyadic value. -/
theorem ofBits_CF_eq : Ideal.ofBits .f32 0x404D55D0#32 = ((13456848 / 4194304 : ℝ) : EReal) := by
  simp [Ideal.ofBits, Ideal.ieee, -EReal.coe_mul]; norm_num

/-- The outer factor denotes a real. -/
theorem ofBits_CF : ∃ r : ℝ, Ideal.ofBits .f32 0x404D55D0#32 = (r : EReal) := ⟨_, ofBits_CF_eq⟩

/-- The floor of the normalising sum (the float nearest `1e-5`): its exact dyadic value. -/
theorem ofBits_EPS_eq : Ideal.ofBits .f32 0x3727C5AC#32 = ((10995116 / 1099511627776 : ℝ) : EReal) := by
  simp [Ideal.ofBits, Ideal.ieee, -EReal.coe_mul]; norm_num

/-- The floor of the normalising sum denotes a real. -/
theorem ofBits_EPS : ∃ r : ℝ, Ideal.ofBits .f32 0x3727C5AC#32 = (r : EReal) := ⟨_, ofBits_EPS_eq⟩

/-- The lower clip of the bandwidth (a positive normal number): its exact dyadic value. -/
theorem ofBits_BD_eq : Ideal.ofBits .f32 0x3C820821#32 = ((8521761 / 536870912 : ℝ) : EReal) := by
  simp [Ideal.ofBits, Ideal.ieee, -EReal.coe_mul]; norm_num

/-- The lower clip of the bandwidth denotes a positive real. -/
theorem ofBits_BD : ∃ r : ℝ, 0 < r ∧ Ideal.ofBits .f32 0x3C820821#32 = (r : EReal) :=
  ⟨_, by norm_num, ofBits_BD_eq⟩

end Cert.Hist

end
-- ==== Proof.LibEReal.lean ====
/-
  General facts about extended reals, for programs read at exact (extended-real) arithmetic whose values are real numbers
  except for a −∞ a running maximum starts from.

  The operations on coerced reals are the coerced real operations: a finite sum (coe_sum), exp of a difference
  (exp_coe_sub), a quotient by a nonzero real (div_coe_coe), max (max_coe_coe). A maximum folded from −∞ over a nonempty
  finite family of reals is a real (fold_max_real), and max(−∞, c) = c (max_bot_coe). The rescaling factor of a first
  block, exp(−∞ − c), is 0 (exp_bot_sub). The f32 pattern 0xFF800000 is −∞ (ofBits_neg_inf).
-/
import Idealize.ShloMosaic.PureOps.Ideal
import Idealize.ShloMosaic.PureOps.Ideal.Laws

noncomputable section

open scoped BigOperators

namespace Cert.LibEReal

open Idealize.ShloMosaic

/-- A finite sum of coerced reals is the coerced sum. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- exp of a difference of reals. -/
theorem exp_coe_sub (a b : ℝ) : Ideal.exp ((a : EReal) - (b : EReal)) = ((Real.exp (a - b) : ℝ) : EReal) := by
  rw [← EReal.coe_sub]; rfl

/-- The first block's rescaling factor: exp(−∞ − c) = 0. -/
theorem exp_bot_sub (b : ℝ) : Ideal.exp ((⊥ : EReal) - (b : EReal)) = 0 := by
  rw [EReal.bot_sub]; rfl

/-- A quotient of reals by a nonzero real. -/
theorem div_coe_coe (a l : ℝ) (hl : l ≠ 0) : Ideal.div (a : EReal) (l : EReal) = ((a / l : ℝ) : EReal) := by
  rw [Ideal.div_coe hl, ← EReal.coe_mul]; congr 1; rw [mul_one_div]

/-- The f32 pattern of −∞ is the bottom element. -/
theorem ofBits_neg_inf : Ideal.ofBits .f32 0xFF800000#32 = (⊥ : EReal) := by simp [Ideal.ofBits, Ideal.ieee]

/-- A maximum folded from −∞ over a nonempty finite family of reals is a real. -/
theorem fold_max_real {ι : Type} [Fintype ι] [Nonempty ι] (f : ι → ℝ) :
    ∃ c : ℝ, (Finset.univ : Finset ι).fold max (⊥ : EReal) (fun k => ((f k : ℝ) : EReal)) = (c : EReal) := by
  have hlt : (Finset.univ : Finset ι).fold max (⊥ : EReal) (fun k => ((f k : ℝ) : EReal)) < ⊤ :=
    (Finset.fold_max_lt ⊤).mpr ⟨bot_lt_top, fun k _ => EReal.coe_lt_top _⟩
  have hgt : (⊥ : EReal) < (Finset.univ : Finset ι).fold max (⊥ : EReal) (fun k => ((f k : ℝ) : EReal)) :=
    (Finset.lt_fold_max ⊥).mpr (Or.inr ⟨Classical.arbitrary ι, Finset.mem_univ _, EReal.bot_lt_coe _⟩)
  exact ⟨_, (EReal.coe_toReal hlt.ne hgt.ne').symm⟩

/-- The running maximum after a block: from −∞ or from a real, against a real block maximum, it is a real. -/
theorem max_bot_coe (c : ℝ) : max (⊥ : EReal) (c : EReal) = (c : EReal) := max_bot_left _
theorem max_coe_coe (a b : ℝ) : max (a : EReal) (b : EReal) = ((max a b : ℝ) : EReal) := (EReal.coe_strictMono.monotone.map_max).symm

end Cert.LibEReal

end
-- ==== Proof.LibBlockSum.lean ====
import Mathlib.Algebra.BigOperators.Fin
import Mathlib.Logic.Equiv.Fin.Basic

/-!
# A finite sum cut into consecutive blocks

A sum over `Fin (B * n)` is the sum over the `B` consecutive blocks of length `n` of the sums inside each block,
and a sum over `Finset.range B` is the sum over `Fin B`. Both hold in every commutative additive monoid: no
subtraction, no finiteness of the terms and no order is used, so they apply to the extended reals as they stand.
The three instances at the end state the first one with literal extents, so that they rewrite a sum whose index
type is written `Fin 8192` or `Fin 16384` and not as a product.
-/

open scoped BigOperators

namespace Cert.LibBlockSum

variable {M : Type*} [AddCommMonoid M]

/-- The `r`-th position of the `j`-th block of length `n` lies below `B * n` when there are `B` blocks. -/
theorem block_lt {B n : ℕ} (j : Fin B) (r : Fin n) : j.val * n + r.val < B * n :=
  calc j.val * n + r.val < j.val * n + n := Nat.add_lt_add_left r.isLt _
    _ = (j.val + 1) * n := (Nat.succ_mul _ _).symm
    _ ≤ B * n := Nat.mul_le_mul_right n j.isLt

/-- A sum of `B * n` terms is the sum over `B` consecutive blocks of the sum of the `n` terms of the block:
    position `k = j * n + r` is the `r`-th term of block `j`, and `(j, r) ↦ j * n + r` is a bijection of
    `Fin B × Fin n` with `Fin (B * n)`. -/
theorem sum_blocks (B n : ℕ) (f : Fin (B * n) → M) :
    ∑ k, f k = ∑ j : Fin B, ∑ r : Fin n, f ⟨j.val * n + r.val, block_lt j r⟩ := by
  rw [← Equiv.sum_comp finProdFinEquiv f, Fintype.sum_prod_type]
  refine Finset.sum_congr rfl fun j _ => Finset.sum_congr rfl fun r _ => ?_
  refine congrArg f (Fin.ext ?_)
  show r.val + n * j.val = j.val * n + r.val
  rw [Nat.add_comm, Nat.mul_comm]

/-- A sum over the naturals below `B` is the sum over `Fin B` of the same terms. -/
theorem sum_range_eq_fin (B : ℕ) (g : ℕ → M) :
    ∑ s ∈ Finset.range B, g s = ∑ j : Fin B, g j.val :=
  (Fin.sum_univ_eq_sum_range g B).symm

/-- A sum of 8192 terms as 8 consecutive blocks of 1024. -/
theorem sum_8192_as_8x1024 (f : Fin 8192 → M) :
    ∑ k, f k = ∑ j : Fin 8, ∑ r : Fin 1024, f ⟨1024 * j.val + r.val, by omega⟩ := by
  refine (sum_blocks 8 1024 f).trans ?_
  refine Finset.sum_congr rfl fun j _ => Finset.sum_congr rfl fun r _ => ?_
  exact congrArg f (Fin.ext (Nat.add_right_cancel_iff.mpr (Nat.mul_comm _ _)))

/-- A sum of 8192 terms as 4 consecutive blocks of 2048. -/
theorem sum_8192_as_4x2048 (f : Fin 8192 → M) :
    ∑ k, f k = ∑ j : Fin 4, ∑ r : Fin 2048, f ⟨2048 * j.val + r.val, by omega⟩ := by
  refine (sum_blocks 4 2048 f).trans ?_
  refine Finset.sum_congr rfl fun j _ => Finset.sum_congr rfl fun r _ => ?_
  exact congrArg f (Fin.ext (Nat.add_right_cancel_iff.mpr (Nat.mul_comm _ _)))

/-- A sum of 16384 terms as 8 consecutive blocks of 2048. -/
theorem sum_16384_as_8x2048 (f : Fin 16384 → M) :
    ∑ k, f k = ∑ j : Fin 8, ∑ r : Fin 2048, f ⟨2048 * j.val + r.val, by omega⟩ := by
  refine (sum_blocks 8 2048 f).trans ?_
  refine Finset.sum_congr rfl fun j _ => Finset.sum_congr rfl fun r _ => ?_
  exact congrArg f (Fin.ext (Nat.add_right_cancel_iff.mpr (Nat.mul_comm _ _)))

end Cert.LibBlockSum
-- ==== Proof.Algebra.lean ====
/-
  The kernel's and the reference's closed forms agree when the bandwidth is a positive real and every coordinate is a
  real.

  Write `ι = 1/(σ·σ)` and `γ = c₁·ι`. The kernel's exponent `Σ_k (s_k·(−2γ))·t_k + γ|s|² + γ|t|²` is
  `c₁·(|s|² + |t|² − 2⟨s,t⟩)/(σ·σ)`, the reference's: a real identity once `σ ≠ 0`. The kernel's eight tile sums,
  accumulated in order from zero, are the sum over all 8192 vertices cut into 8 consecutive blocks of 1024. The factor
  `σ^(−2)` is `1/(σ·σ)` for `σ > 0`, and multiplying by `2⁻¹³` is dividing by 8192. On the extended reals none of
  this holds at the infinities, so every quantity is first shown to be the coercion of a real expression.
-/
import proofs.«149424_j56727928045825_2_alg».proof.Proof.Forms
import proofs.«149424_j56727928045825_2_alg».proof.Proof.Consts
import proofs.«149424_j56727928045825_2_alg».proof.Proof.LibEReal
import proofs.«149424_j56727928045825_2_alg».proof.Proof.LibBlockSum

noncomputable section

open scoped BigOperators

namespace Cert.Hist

open Idealize.ShloMosaic Cert.LibEReal

/-- The kernel's exponent on reals (`ι` stands for `1/(σ·σ)`). -/
def kArgR (cn ι : ℝ) (a t : Fin 2 → ℝ) : ℝ :=
  (((a 0 * (-2 * (cn * ι))) * t 0 + (a 1 * (-2 * (cn * ι))) * t 1) + (cn * ι) * (a 0 * a 0 + a 1 * a 1))
    + (cn * ι) * (t 0 * t 0 + t 1 * t 1)

/-- The reference's exponent on reals. -/
def rArgR (cn r : ℝ) (a t : Fin 2 → ℝ) : ℝ :=
  (cn * (((a 0 * a 0 + a 1 * a 1) + (t 0 * t 0 + t 1 * t 1)) - 2 * (a 0 * t 0 + a 1 * t 1))) / (r * r)

/-- The two exponents are the same real. -/
theorem kArgR_eq_rArgR (cn : ℝ) {r : ℝ} (hr : r ≠ 0) (a t : Fin 2 → ℝ) : kArgR cn (1 / (r * r)) a t = rArgR cn r a t := by
  unfold kArgR rArgR
  field_simp
  ring

/-- `1/(σ·σ)` at a nonzero real. -/
theorem inv2_coe {r : ℝ} (hr : r ≠ 0) : inv2 (r : EReal) = ((1 / (r * r) : ℝ) : EReal) := by
  unfold inv2
  simp only [cOne]
  rw [ofBits_one, ← EReal.coe_mul, div_coe_coe _ _ (mul_ne_zero hr hr)]

/-- The kernel's exponent at reals is the coerced real exponent. -/
theorem kArg_coe {cn r : ℝ} (hcn : Ideal.ofBits .f32 0xC1214518#32 = (cn : EReal)) (hr : r ≠ 0) (a t : Fin 2 → ℝ) :
    kArg (r : EReal) (fun k => (a k : EReal)) (fun k => (t k : EReal)) = ((kArgR cn (1 / (r * r)) a t : ℝ) : EReal) := by
  unfold kArg kArgR
  rw [inv2_coe hr]
  simp only [cNegTwo, cCN]
  rw [hcn, ofBits_neg_two, Fin.sum_univ_two]
  simp only [← EReal.coe_mul, ← EReal.coe_add]

/-- The reference's exponent at reals is the coerced real exponent. -/
theorem rArg_coe {cn r : ℝ} (hcn : Ideal.ofBits .f32 0xC1214518#32 = (cn : EReal)) (hr : r ≠ 0) (a t : Fin 2 → ℝ) :
    Ideal.div (cCN * (((cZero + ∑ k : Fin 2, (a k : EReal) * (a k : EReal)) + (cZero + ∑ k : Fin 2, (t k : EReal) * (t k : EReal)))
        - cTwo * ∑ k : Fin 2, (a k : EReal) * (t k : EReal))) ((r : EReal) * (r : EReal))
      = ((rArgR cn r a t : ℝ) : EReal) := by
  unfold rArgR
  simp only [cZero, cTwo, cCN]
  rw [hcn, ofBits_zero, ofBits_two, Fin.sum_univ_two, Fin.sum_univ_two, Fin.sum_univ_two, zero_add, zero_add]
  simp only [← EReal.coe_mul, ← EReal.coe_add, ← EReal.coe_sub]
  rw [div_coe_coe _ _ (mul_ne_zero hr hr)]

/-- For a tile number below 8 the tile's vertex `c` is vertex `1024·a + c`. -/
theorem tile_eq (j : Fin 8) (c : Fin 1024) : tile j.val c = ⟨1024 * j.val + c.val, by omega⟩ :=
  Fin.ext (Nat.mod_eq_of_lt (by have := j.isLt; have := c.isLt; omega))

/-- Eight tile sums accumulated in order from zero are the sum over all 8192 vertices. -/
theorem acc_eq_sum (f : Fin 8192 → ℝ) :
    (0 : ℝ) + (∑ c : Fin 1024, f (tile 0 c)) + (∑ c : Fin 1024, f (tile 1 c)) + (∑ c : Fin 1024, f (tile 2 c))
      + (∑ c : Fin 1024, f (tile 3 c)) + (∑ c : Fin 1024, f (tile 4 c)) + (∑ c : Fin 1024, f (tile 5 c))
      + (∑ c : Fin 1024, f (tile 6 c)) + (∑ c : Fin 1024, f (tile 7 c)) = ∑ j : Fin 8192, f j := by
  have h : ∑ k, f k = ∑ j : Fin 8, ∑ c : Fin 1024, f (tile j.val c) :=
    (Cert.LibBlockSum.sum_8192_as_8x1024 f).trans
      (Finset.sum_congr rfl fun j _ => Finset.sum_congr rfl fun c _ => congrArg f (tile_eq j c).symm)
  rw [h, Fin.sum_univ_eight, zero_add]
  rfl

/-- One tile's sum at reals. -/
theorem kPart_coe {cn r : ℝ} (hcn : Ideal.ofBits .f32 0xC1214518#32 = (cn : EReal)) (hr : r ≠ 0) (a : Fin 2 → ℝ)
    (t : Fin 8192 → Fin 2 → ℝ) (n : ℕ) :
    kPart (r : EReal) (fun k => (a k : EReal)) (fun j k => (t j k : EReal)) n
      = ((∑ c : Fin 1024, Real.exp (kArgR cn (1 / (r * r)) a (t (tile n c))) : ℝ) : EReal) := by
  unfold kPart
  rw [← coe_sum]
  refine Finset.sum_congr rfl fun c _ => ?_
  exact (congrArg Ideal.exp (kArg_coe hcn hr a (t (tile n c)))).trans (Ideal.exp_coe _)

/-- The accumulated sum at reals. -/
theorem kAcc_coe {cn r : ℝ} (hcn : Ideal.ofBits .f32 0xC1214518#32 = (cn : EReal)) (hr : r ≠ 0) (a : Fin 2 → ℝ)
    (t : Fin 8192 → Fin 2 → ℝ) :
    kAcc (r : EReal) (fun k => (a k : EReal)) (fun j k => (t j k : EReal)) 7
      = ((∑ j : Fin 8192, Real.exp (rArgR cn r a (t j)) : ℝ) : EReal) := by
  have h7 : ∀ (σ : EReal) (s : Fin 2 → EReal) (T : Fin 8192 → Fin 2 → EReal), kAcc σ s T 7
      = cZero + kPart σ s T 0 + kPart σ s T 1 + kPart σ s T 2 + kPart σ s T 3 + kPart σ s T 4 + kPart σ s T 5
        + kPart σ s T 6 + kPart σ s T 7 := fun _ _ _ => rfl
  rw [h7]
  simp only [cZero]
  rw [ofBits_zero, ← EReal.coe_zero]
  simp only [kPart_coe hcn hr, ← EReal.coe_add]
  rw [acc_eq_sum (fun j => Real.exp (kArgR cn (1 / (r * r)) a (t j)))]
  simp only [kArgR_eq_rArgR cn hr]

/-- The two closed forms agree for a positive real bandwidth and real coordinates. -/
theorem forms_eq (σ : EReal) (hσ : ∃ r : ℝ, 0 < r ∧ σ = (r : EReal)) (s : Fin 2 → EReal)
    (hs : ∀ k, ∃ r : ℝ, s k = (r : EReal)) (T : Fin 8192 → Fin 2 → EReal) (hT : ∀ j k, ∃ r : ℝ, T j k = (r : EReal)) :
    KForm σ s T = RForm σ s T := by
  obtain ⟨r, hr0, rfl⟩ := hσ
  have hr : r ≠ 0 := hr0.ne'
  choose a ha using hs
  choose t ht using hT
  obtain rfl : s = fun k => (a k : EReal) := funext ha
  obtain rfl : T = fun j k => (t j k : EReal) := funext fun j => funext (ht j)
  obtain ⟨cn, hcn⟩ := ofBits_CN
  obtain ⟨cf, hcf⟩ := ofBits_CF
  have hpow : Real.rpow r (-2) = 1 / (r * r) := by
    show r ^ (-2 : ℝ) = 1 / (r * r)
    rw [Real.rpow_neg hr0.le, Real.rpow_two, one_div, sq]
  unfold KForm RForm
  rw [kAcc_coe hcn hr, inv2_coe hr]
  simp only [rArg_coe hcn hr, Ideal.exp_coe]
  rw [coe_sum]
  simp only [cCF, cInvN, cNegTwo, cZero, cN]
  rw [hcf, ofBits_inv_8192, ofBits_neg_two, ofBits_zero, ofBits_8192, Ideal.pow_coe_coe, hpow, zero_add,
    div_coe_coe _ _ (by norm_num : (8192 : ℝ) ≠ 0)]
  simp only [← EReal.coe_mul]
  congr 1
  ring

end Cert.Hist

end
-- ==== Proof.LibIsReal.lean ====
/-
  "Is a real number" on the extended reals, and what keeps it: zero, sums, differences, products, maxima, finite sums,
  a quotient by a nonzero real constant, and the reciprocal square root of a positive real.  With these, an expression
  built from real inputs by such operations is real, which is what distributivity and cancellation need on the extended
  reals (they fail at the infinities).
-/
import Idealize.ShloMosaic.PureOps.Ideal
import proofs.«149424_j56727928045825_2_alg».proof.Proof.LibEReal

noncomputable section

namespace Cert.Net

open Idealize.ShloMosaic

/-- An extended real that is a real number. -/
def IsReal (x : EReal) : Prop := ∃ r : ℝ, x = (r : EReal)

theorem IsReal.zero : IsReal 0 := ⟨0, EReal.coe_zero.symm⟩
theorem IsReal.coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy; exact ⟨Max.max a b, Cert.LibEReal.max_coe_coe a b⟩
theorem IsReal.sum {ι : Type} (S : Finset ι) (f : ι → EReal) (h : ∀ i ∈ S, IsReal (f i)) : IsReal (∑ i ∈ S, f i) := by
  classical
  induction S using Finset.induction_on with
  | empty => rw [Finset.sum_empty]; exact IsReal.zero
  | insert a s ha ih =>
    rw [Finset.sum_insert ha]
    exact (h a (Finset.mem_insert_self _ _)).add (ih fun i hi => h i (Finset.mem_insert_of_mem hi))
theorem IsReal.div {x N : EReal} (hx : IsReal x) {ν : ℝ} (hN : N = (ν : EReal)) (hν : ν ≠ 0) : IsReal (Ideal.div x N) := by
  obtain ⟨a, rfl⟩ := hx; subst hN; exact ⟨a / ν, Cert.LibEReal.div_coe_coe a ν hν⟩
theorem IsReal.rsqrt {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

end Cert.Net

end
-- ==== Proof.LibAllReal.lean ====
/-
  "Every entry of an array is a real number", for arrays of extended reals, and the array operations that keep it:
  a splat of a real constant, any broadcast, entrywise sum, difference and product, a host sum-reduction from a real
  initial value over any axes, and the entrywise quotient by an array whose entries are nonzero reals.

  Beside it the weaker "is not +∞", which survives a square root of a real (a real or the junk value −∞), finite sums,
  and a quotient by a positive real; and the clip from below at a positive real, which turns "not +∞" into a positive real.
-/
import Idealize.ShloMosaic.PureOps.Ideal
import Idealize.ShloMosaic.PureOps.Ideal.Laws
import proofs.«149424_j56727928045825_2_alg».proof.Proof.LibIsReal

noncomputable section

open scoped BigOperators

namespace Cert.LibAllReal

open Idealize.ShloMosaic Cert.Net

/-- Every entry of the array is a real. -/
def AllReal {s : Shape} (v : s.Idx → EReal) : Prop := ∀ i, IsReal (v i)

variable {s t u : Shape}

theorem AllReal.constant (s : Shape) {b : BitVec 32} (h : IsReal (Ideal.ofBits .f32 b)) :
    AllReal (constant (F := Ideal) s .f32 b) := fun _ => h

theorem AllReal.broadcastInDim (t : Shape) (dims : Fin s.rank → Fin t.rank) (h : s.BroadcastsInDim t dims)
    {x : s.Idx → EReal} (hx : AllReal x) : AllReal (broadcastInDim t dims h x) := fun _ => hx _

theorem AllReal.addf {x y : FVec Ideal s .f32} (hx : AllReal x) (hy : AllReal y) : AllReal (addf x y) :=
  fun i => (hx i).add (hy i)

theorem AllReal.subf {x y : FVec Ideal s .f32} (hx : AllReal x) (hy : AllReal y) : AllReal (subf x y) :=
  fun i => (hx i).sub (hy i)

theorem AllReal.mulf {x y : FVec Ideal s .f32} (hx : AllReal x) (hy : AllReal y) : AllReal (mulf x y) :=
  fun i => (hx i).mul (hy i)

/-- A host sum-reduction of reals from a real initial value. -/
theorem AllReal.hostReduceAdd {axes : List (Fin s.rank)} {x : FVec Ideal s .f32} {init : u.Idx → Ideal .f32}
    (hx : AllReal x) (hinit : AllReal init) (h : s.ReducesTo axes t) (hu : 0 < u.numel) :
    AllReal (Host.reduceAdd (F := Ideal) x init h hu) := fun j =>
  show IsReal (init (Shape.Idx.first hu) + ∑ i ∈ Finset.univ.filter (fun i => h.drop i = j), x i) from
    (hinit _).add (IsReal.sum _ _ fun i _ => hx i)

/-- The entrywise host quotient by an array of nonzero reals. -/
theorem AllReal.hostDivf {x y : FVec Ideal s .f32} (hx : AllReal x) (hy : ∀ i, ∃ ν : ℝ, ν ≠ 0 ∧ y i = (ν : EReal)) :
    AllReal (Host.divf (F := Ideal) x y) := fun i => by
  obtain ⟨ν, hν, e⟩ := hy i
  exact (hx i).div e hν

/-! ### Not +∞ -/

/-- The square root of a real is a real or −∞, never +∞. -/
theorem sqrt_ne_top {x : EReal} (h : IsReal x) : Ideal.sqrt x ≠ ⊤ := by
  obtain ⟨r, rfl⟩ := h
  rw [Ideal.sqrt_coe]
  split_ifs
  · exact bot_ne_top
  · exact EReal.coe_ne_top _

/-- A finite sum of terms none of which is +∞ is not +∞. -/
theorem sum_ne_top {ι : Type} (S : Finset ι) (f : ι → EReal) (h : ∀ i ∈ S, f i ≠ ⊤) : ∑ i ∈ S, f i ≠ ⊤ := by
  classical
  induction S using Finset.induction_on with
  | empty => rw [Finset.sum_empty]; exact EReal.zero_ne_top
  | insert a S ha ih =>
    rw [Finset.sum_insert ha]
    exact (EReal.add_lt_top (h a (Finset.mem_insert_self _ _)) (ih fun i hi => h i (Finset.mem_insert_of_mem hi))).ne

/-- A quotient by a positive real keeps "not +∞". -/
theorem div_pos_ne_top {y : EReal} {ν : ℝ} (hν : 0 < ν) (hy : y ≠ ⊤) : Ideal.div y (ν : EReal) ≠ ⊤ := by
  rw [Ideal.div_coe hν.ne']
  have hpos : (0 : ℝ) < 1 / ν := one_div_pos.mpr hν
  induction y using EReal.rec with
  | bot => rw [EReal.bot_mul_coe_of_pos hpos]; exact bot_ne_top
  | coe a => rw [← EReal.coe_mul]; exact EReal.coe_ne_top _
  | top => exact absurd rfl hy

/-- Clipping from below at a positive real an extended real that is not +∞ gives a positive real. -/
theorem max_pos_real {c : ℝ} (hc : 0 < c) {y : EReal} (hy : y ≠ ⊤) : ∃ r : ℝ, 0 < r ∧ max (c : EReal) y = (r : EReal) := by
  induction y using EReal.rec with
  | bot => exact ⟨c, hc, max_bot_right _⟩
  | coe a => exact ⟨max c a, lt_of_lt_of_le hc (le_max_left _ _), Cert.LibEReal.max_coe_coe c a⟩
  | top => exact absurd rfl hy

end Cert.LibAllReal

end
-- ==== Proof.SigmaReal.lean ====
/-
  The bandwidth is a positive real.

  With real inputs, the mean, the centred values, their squares, the sums of squares and the quotient by the real
  8191 (the divisor 8192 − 1, where the 1 is an integer constant converted to a float) are reals; the guard 8191 > 0
  holds, so the variance is that quotient. The square root of a real is a real or the junk value −∞, never +∞, and so
  are the sum of the two roots and its half. Clipping from below at a positive real constant then gives a positive real.
-/
import proofs.«149424_j56727928045825_2_alg».proof.Proof.Terms
import proofs.«149424_j56727928045825_2_alg».proof.Proof.Consts
import proofs.«149424_j56727928045825_2_alg».proof.Proof.LibAllReal
import Idealize.ShloMosaic.Lib.ValueIdx

noncomputable section

open scoped BigOperators

namespace Cert.Hist

open Idealize.ShloMosaic Idealize.SL.Sem Cert.ReferenceIdeal Cert.ReferenceIdeal.Facts₀ Cert.Net Cert.LibAllReal

/-- The scalar zero is 0. -/
theorem zero0_apply (i : S_.Idx) : zero0 i = 0 := ofBits_zero

theorem zero0_real : AllReal zero0 := fun i => by rw [zero0_apply]; exact IsReal.zero

/-- The divisor of the unbiased variance is the real 8191. -/
theorem NMinus1_apply (i : S_.Idx) : NMinus1 i = ((8191 : ℝ) : EReal) := by
  show Ideal.ofBits .f32 0x46000000#32 - ((((1#32 : BitVec 32).toInt : ℤ) : ℝ) : EReal) = _
  have h1 : (1#32 : BitVec 32).toInt = 1 := by decide
  rw [ofBits_8192, h1, ← EReal.coe_sub]
  norm_num

/-- The guard `8192 − 1 > 0` holds. -/
theorem guard_apply (i : S_.Idx) : cmpf (F := Ideal) .ogt NMinus1 zero0 i = 1#1 := by
  show Ideal.cmp .ogt (NMinus1 i) (zero0 i) = 1#1
  rw [NMinus1_apply, zero0_apply]
  show BitVec.ofBool (decide ((0 : EReal) < ((8191 : ℝ) : EReal))) = 1#1
  rw [decide_eq_true (by exact_mod_cast (by norm_num : (0 : ℝ) < 8191))]
  rfl

/-- The variance is the guarded quotient's first branch. -/
theorem Var_eq (T : FVec Ideal S8x8192x2 .f32) :
    Var T = Host.divf (F := Ideal)
      (Host.reduceAdd (F := Ideal) (mulf (Centered T) (Centered T)) zero0 reducesTo_S8x8192x2_S8x2_d1 h_S_)
      (broadcastInDim S8x2 ![] bcast_S_S8x2 NMinus1) := by
  funext i
  show Scalar.select (cmpf (F := Ideal) .ogt NMinus1 zero0 _) _ _ = _
  rw [guard_apply]
  rfl

theorem Mean_real (T : FVec Ideal S8x8192x2 .f32) (hT : AllReal T) : AllReal (Mean T) := by
  unfold Mean
  refine AllReal.hostDivf (AllReal.broadcastInDim _ _ _ (AllReal.hostReduceAdd hT zero0_real _ _)) fun i => ?_
  exact ⟨8192, by norm_num, ofBits_8192⟩

theorem Centered_real (T : FVec Ideal S8x8192x2 .f32) (hT : AllReal T) : AllReal (Centered T) :=
  AllReal.subf hT (AllReal.broadcastInDim _ _ _ (Mean_real T hT))

theorem Var_real (T : FVec Ideal S8x8192x2 .f32) (hT : AllReal T) : AllReal (Var T) := by
  rw [Var_eq]
  refine AllReal.hostDivf (AllReal.hostReduceAdd (AllReal.mulf (Centered_real T hT) (Centered_real T hT)) zero0_real _ _)
    fun i => ?_
  exact ⟨8191, by norm_num, NMinus1_apply _⟩

/-- The bandwidth of real inputs is a positive real, for every batch. -/
theorem sigma_real_pos (T : FVec Ideal Cert.ReferenceIdeal.S8x8192x2 .f32) (hT : ∀ i, ∃ r : ℝ, T i = (r : EReal)) (b : Fin 8) :
    ∃ r : ℝ, 0 < r ∧ Sigma T (ValueIdx.ix1 b) = (r : EReal) := by
  obtain ⟨c, hc, hBD⟩ := ofBits_BD
  have hV := Var_real T hT
  show ∃ r : ℝ, 0 < r ∧ max (Ideal.ofBits .f32 0x3C820821#32)
    (Ideal.div (zero0 (Shape.Idx.first h_S_)
        + ∑ i ∈ Finset.univ.filter (fun i => reducesTo_S8x2_S8_d1.drop i = ValueIdx.ix1 b), Ideal.sqrt (Var T i))
      (Ideal.ofBits .f32 0x40000000#32)) = (r : EReal)
  rw [hBD, ofBits_two, zero0_apply, zero_add]
  exact max_pos_real hc (div_pos_ne_top (by norm_num) (sum_ne_top _ _ fun i _ => sqrt_ne_top (hV i)))

end Cert.Hist

end
-- ==== Proof.LibAbsLtInf.lean ====
/-
  "The absolute value tests below +∞" on the extended reals means "is a real number": the f32 pattern 0x7F800000 is the
  top element, and max x (−x) < ⊤ excludes both ⊥ (where −x = ⊤) and ⊤.
-/
import Idealize.ShloMosaic.PureOps.Ideal
import Idealize.ShloMosaic.PureOps.Ideal.Laws

noncomputable section

namespace Cert.LibAbsLtInf

open Idealize.ShloMosaic

/-- The f32 pattern of +∞ is the top element. -/
theorem ofBits_inf : Ideal.ofBits .f32 0x7F800000#32 = (⊤ : EReal) := by simp [Ideal.ofBits, Ideal.ieee]

/-- An extended real whose absolute value tests below +∞ is a real. -/
theorem real_of_abs_lt (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  induction x using EReal.rec with
  | bot => simp at hlt
  | coe r => exact ⟨r, rfl⟩
  | top => simp at hlt

end Cert.LibAbsLtInf

end
-- ==== Proof.Finite.lean ====
/- From the precondition to "every entry of both inputs is a real number".

   The precondition is the conjunction of two `all`-reductions of the element test `|x| < +∞`. On the extended reals
   `|x| = max x (−x)`, and `max x (−x) < ⊤` excludes both infinities, so each entry is a real. -/
import proofs.«149424_j56727928045825_2_alg».proof.Defs
import proofs.«149424_j56727928045825_2_alg».proof.Proof.Gen.Pre_finite_inputs
import proofs.«149424_j56727928045825_2_alg».proof.Proof.LibAbsLtInf
import Idealize.ShloMosaic.Lib.ReduceAll
import Idealize.ShloMosaic.Lib.ValueIdx

noncomputable section

namespace Cert.Hist

open Idealize.ShloMosaic Idealize.SL.Sem

/-- The rank-0 shape has one index. -/
instance subsingleton_scalar_idx : Subsingleton Cert.Pre_finite_inputs.S_.Idx :=
  ⟨fun a b => funext fun d => d.elim0⟩

/-- The printed predicate, all ones, says every entry of both arrays is a real. -/
theorem real_of_fn (x : FVec Ideal Cert.Pre_finite_inputs.S8x8192x2 .f32) (y : FVec Ideal Cert.Pre_finite_inputs.S8x4096x2 .f32)
    (h : @Cert.Pre_finite_inputs.fn Cert.Pre_finite_inputs.Gen.facts Ideal _ x y = (fun _ => 1#1)) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨hx, hy⟩ := IntOp.andi_eq_one.1 h0
  refine ⟨fun i => ?_, fun i => ?_⟩
  · have e := Host.reduce_andi_all _ _ _ _ _ hx i
    exact Cert.LibAbsLtInf.real_of_abs_lt (x i) e
  · have e := Host.reduce_andi_all _ _ _ _ _ hy i
    exact Cert.LibAbsLtInf.real_of_abs_lt (y i) e

/-- The precondition of the idealized kernel says, on every device, that every entry of both argument arrays is a real. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread _ _).loc Cert.KernelIdeal.main_arg0) i = (r : EReal))
      ∧ (∀ i, ∃ r : ℝ, m ((c.tc : Thread _ _).loc Cert.KernelIdeal.main_arg1) i = (r : EReal)) :=
  real_of_fn _ _ (h c)

end Cert.Hist

end
-- ==== Proof.Claims.lean ====
/-
  The claims, assembled.

  The idealized kernel's run leaves, on every device, the normalisation of the array whose entry (b, i) is the
  kernel's closed form for batch b and grid point i; the idealized reference's run leaves the normalisation of its
  own kernel estimate at the bandwidth computed from the vertices.  Under the precondition every input entry is a
  real number, so the bandwidth of each batch is a positive real, and for a positive real bandwidth and real
  coordinates the two closed forms are one extended real.  Read index by index, the two arrays under the
  normalisation are therefore equal, and so are the two results.
-/
import proofs.«149424_j56727928045825_2_alg».proof.Defs
import proofs.«149424_j56727928045825_2_alg».proof.Proof.Gen.Kernel.Frame
import proofs.«149424_j56727928045825_2_alg».proof.Proof.KFinal
import proofs.«149424_j56727928045825_2_alg».proof.Proof.RefRun
import proofs.«149424_j56727928045825_2_alg».proof.Proof.RefRead
import proofs.«149424_j56727928045825_2_alg».proof.Proof.Algebra
import proofs.«149424_j56727928045825_2_alg».proof.Proof.SigmaReal
import proofs.«149424_j56727928045825_2_alg».proof.Proof.Finite

noncomputable section

namespace Cert.Proof.HistClaims

open Idealize.ShloMosaic Idealize.ShloMosaic.TcCoe Idealize.SL.Sem Idealize.ShloMosaic.ValueIdx

/-- The kernel's result array with its unit axis dropped is the reference's kernel estimate, when every input
    entry is a real: at (b, i) the cast reads the array at (b, i, 0), the kernel's closed form there, which for
    the positive real bandwidth of batch b and real coordinates is the reference's closed form. -/
theorem kh_eq (m : (ℓ : Loc Cert.KernelIdeal.nD Cert.KernelIdeal.τ Cert.KernelIdeal.sig) → Buf (Elt Ideal) ℓ)
    (c : Dev Cert.KernelIdeal.nD)
    (hT : ∀ i, ∃ r : ℝ, m ((c.tc : Thread Cert.KernelIdeal.nD Cert.KernelIdeal.τ).loc Cert.KernelIdeal.main_arg0) i = (r : EReal))
    (hS : ∀ i, ∃ r : ℝ, m ((c.tc : Thread Cert.KernelIdeal.nD Cert.KernelIdeal.τ).loc Cert.KernelIdeal.main_arg1) i = (r : EReal)) :
    shapeCast Cert.KernelIdeal.S8x4096 (Cert.KernelIdeal.KValue.KArr m c) Cert.KernelIdeal.Facts₀.shapeCasts_S8x4096x1_S8x4096
      = Cert.Hist.RefKH
          (Cert.Hist.Sigma (m ((c.tc : Thread Cert.KernelIdeal.nD Cert.KernelIdeal.τ).loc Cert.KernelIdeal.main_arg0)))
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext j
  obtain ⟨b, i, rfl⟩ : ∃ (b : Fin 8) (i : Fin 4096), j = ix2 b i := ⟨j 0, j 1, eq_ix2 j⟩
  rw [Cert.Hist.refKH_apply]
  refine (shapeCast_apply (Cert.KernelIdeal.KValue.KArr m c) Cert.KernelIdeal.Facts₀.shapeCasts_S8x4096x1_S8x4096
    (ix2 b i) (ix3 b i 0) ?_).trans ?_
  · rw [Shape.rowMajor_val_three, Shape.rowMajor_val_two]
    show (b.val * 4096 + i.val) * 1 + 0 = b.val * 4096 + i.val
    omega
  · show Cert.Hist.KForm (Cert.KernelIdeal.KValue.sg m c b) (Cert.KernelIdeal.KValue.sv m c b i)
      (Cert.KernelIdeal.KValue.tv m c b) = _
    rw [Cert.Hist.forms_eq _ (Cert.Hist.sigma_real_pos _ hT b) _ (fun k => hS _) _ (fun j k => hT _)]
    rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- The idealization rewrote no operation: nothing to restate. -/
theorem preserves : Cert.preserves_Kernel_KernelIdeal := trivial

/-- At the ideal instance, from memories agreeing on the two arguments of which the precondition holds, the kernel
    program ends at the normalisation of its closed-form array and the reference at the normalisation of its
    kernel estimate; under the precondition the two arrays are equal, hence the two results. -/
theorem algebraic : Cert.algebraic_KernelIdeal_ReferenceIdeal := by
  intro m ρ m' ρ' hpre hagree
  refine ⟨fun c => Cert.Hist.Tail (shapeCast Cert.KernelIdeal.S8x4096 (Cert.KernelIdeal.KValue.KArr m c)
    Cert.KernelIdeal.Facts₀.shapeCasts_S8x4096x1_S8x4096), Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  exact congrArg Cert.Hist.Tail
    (kh_eq m c (Cert.Hist.real_of_pre m hpre c).1 (Cert.Hist.real_of_pre m hpre c).2).symm

end Cert.Proof.HistClaims

end
-- ==== Proof.lean ====
/-
  The certificate of a Gaussian kernel-density histogram.

  For each of 8 batches, 8192 planar vertices `T[b,j]` and 4096 planar grid points `S[b,i]`: the bandwidth
  `σ_b` is the mean of the two unbiased standard deviations of the vertices' coordinates, clipped below at a
  positive constant; the density at a grid point is `c₂ · σ_b^(−2) · (1/8192) Σ_j exp (c₁ · |S[b,i] − T[b,j]|² / σ_b²)`;
  and each batch's densities are divided by their sum clipped below.

  The kernel and the reference compute `σ` and the final normalisation by the same host operations. In between,
  the reference expands the squared distance as `|s|² + |t|² − 2⟨s,t⟩` over the whole [8,4096,8192] array, while the
  kernel sweeps the vertices in 8 tiles of 1024 per block of 256 grid points, with `γ = c₁ · (1/(σ·σ))` folded into
  the operands — the exponent is `(Σ_k (s_k·(−2γ))·t_k + γ|s|²) + γ|t|²` —, accumulates the tiles' sums of
  exponentials in a scratch block, and scales the total by `c₂ · (1/(σ·σ))` and by `2⁻¹³`.

  On the extended reals the two agree because every quantity is a real and `σ > 0`: the inputs are finite by the
  precondition, sums, products and quotients by nonzero reals of reals are reals, a square root of a real is a real
  or `⊥`, and the clip makes `σ` a real at least the positive constant. Then the exponents agree by
  distributivity, `σ^(−2) = 1/(σ·σ)`, the eight tiles regroup the sum over the 8192 vertices, and a product with
  `2⁻¹³` is a quotient by 8192.

  The modules: `Terms` (the shared host computations as functions of whole arrays), `Forms` (the two closed forms
  per batch and grid point) and `Algebra` (their equality over the reals); `RefRun`, `RefRead` (the reference's run
  and its result read at an index); `KPieces`, `KLayout`, `KPayload`, `KBlocks`, `KInv`, `KFinal` (what one run of
  the kernel body leaves, its arithmetic entry by entry, the input blocks, the running sum across the grid, the
  result array and the program's run); `Consts`, `Finite`, `SigmaReal` (the literals, finiteness of the inputs,
  the bandwidth a positive real); `Claims` (the five claims).
-/
import proofs.«149424_j56727928045825_2_alg».proof.Defs
import proofs.«149424_j56727928045825_2_alg».proof.Proof.Gen.Kernel
import proofs.«149424_j56727928045825_2_alg».proof.Proof.Gen.Kernel.Skeleton
import proofs.«149424_j56727928045825_2_alg».proof.Proof.Gen.Kernel.Launch
import proofs.«149424_j56727928045825_2_alg».proof.Proof.Gen.Kernel.Points
import proofs.«149424_j56727928045825_2_alg».proof.Proof.Gen.Kernel.Frame
import proofs.«149424_j56727928045825_2_alg».proof.Proof.Gen.KernelIdeal
import proofs.«149424_j56727928045825_2_alg».proof.Proof.Gen.KernelIdeal.Skeleton
import proofs.«149424_j56727928045825_2_alg».proof.Proof.Gen.KernelIdeal.Launch
import proofs.«149424_j56727928045825_2_alg».proof.Proof.Gen.KernelIdeal.Points
import proofs.«149424_j56727928045825_2_alg».proof.Proof.Gen.KernelIdeal.Frame
import proofs.«149424_j56727928045825_2_alg».proof.Proof.Gen.ReferenceIdeal
import proofs.«149424_j56727928045825_2_alg».proof.Proof.Gen.Pre_finite_inputs
import proofs.«149424_j56727928045825_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    HistClaims.frame_k, HistClaims.frame_ki, HistClaims.frame_ri, HistClaims.preserves, HistClaims.algebraic⟩

end Cert.Proof

end
